-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2048x512 : Shape := ⟨2, ![2048, 512]⟩
abbrev S4096x2048 : Shape := ⟨2, ![4096, 2048]⟩
abbrev S8192x4096 : Shape := ⟨2, ![8192, 4096]⟩
abbrev S16384x8192 : Shape := ⟨2, ![16384, 8192]⟩
abbrev S2048 : Shape := ⟨1, ![2048]⟩
abbrev S4096 : Shape := ⟨1, ![4096]⟩
abbrev S8192 : Shape := ⟨1, ![8192]⟩
abbrev S16384 : Shape := ⟨1, ![16384]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S16384x8192 : S_.BroadcastsInDim S16384x8192 (![] : Fin 0 → Fin S16384x8192.rank)
  reducesTo_S16384x8192_S_d0_1 : S16384x8192.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_
  bcast_S_S8192 : S_.BroadcastsInDim S8192 (![] : Fin 0 → Fin S8192.rank)
  reducesTo_S8192_S_d0 : S8192.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg7 : FVec F S8192 .f32) (main_arg8 : FVec F S16384 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S16384 .f32 := Host.absf main_arg8
  let main_cst_14 : FVec F S_ .f32 := constant S_ .f32 0x7F800000#32
  let main_v40 : FVec F S16384 .f32 := broadcastInDim S16384 ![] bcast_S_S16384 main_cst_14
  let main_v41 : IVec S16384 1 := cmpf .olt main_v39 main_v40
  let main_c_15 : IVec S_ 1 := constantI S_ 1 1#1
  let main_v42 : IVec S_ 1 := (fun x v => Host.reduce IntOp.andi x v reducesTo_S16384_S_d0 h_S_) main_v41 main_c_15
  let main_v43 : IVec S_ 1 := andi main_v38 main_v42
  main_v43

def fn_part1 {F : FTy → Type} [FloatOps F] (main_arg4 : FVec F S16384x8192 .f32) (main_arg5 : FVec F S2048 .f32) (main_arg6 : FVec F S4096 .f32) (main_arg7 : FVec F S8192 .f32) (main_arg8 : FVec F S16384 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S16384x8192 .f32 := Host.absf main_arg4
  let main_cst_6 : FVec F S_ .f32 := constant S_ .f32 0x7F800000#32
  let main_v20 : FVec F S16384x8192 .f32 := broadcastInDim S16384x8192 ![] bcast_S_S16384x8192 main_cst_6
  let main_v21 : IVec S16384x8192 1 := cmpf .olt main_v19 main_v20
  let main_c_7 : IVec S_ 1 := constantI S_ 1 1#1
  let main_v22 : IVec S_ 1 := (fun x v => Host.reduce IntOp.andi x v reducesTo_S16384x8192_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S64x512 .f32) (main_arg1 : FVec F S2048x512 .f32) (main_arg2 : FVec F S4096x2048 .f32) (main_arg3 : FVec F S8192x4096 .f32) (main_arg4 : FVec F S16384x8192 .f32) (main_arg5 : FVec F S2048 .f32) (main_arg6 : FVec F S4096 .f32) (main_arg7 : FVec F S8192 .f32) (main_arg8 : FVec F S16384 .f32) (main_arg9 : IVec S2048x512 1) (main_arg10 : IVec S4096x2048 1) (main_arg11 : IVec S8192x4096 1) (main_arg12 : IVec S16384x8192 1) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_v13 main_v16
-- ==== Kernel.lean ====
abbrev S64x512 : Shape := ⟨2, ![64, 512]⟩
abbrev S2048x512 : Shape := ⟨2, ![2048, 512]⟩
abbrev S4096x2048 : Shape := ⟨2, ![4096, 2048]⟩
abbrev S8192x4096 : Shape := ⟨2, ![8192, 4096]⟩
abbrev S16384x8192 : Shape := ⟨2, ![16384, 8192]⟩
abbrev S2048 : Shape := ⟨1, ![2048]⟩
abbrev S4096 : Shape := ⟨1, ![4096]⟩
abbrev S8192 : Shape := ⟨1, ![8192]⟩
abbrev S16384 : Shape := ⟨1, ![16384]⟩
abbrev S1x2048 : Shape := ⟨2, ![1, 2048]⟩
abbrev S64x2048 : Shape := ⟨2, ![64, 2048]⟩
abbrev S1024x512 : Shape := ⟨2, ![1024, 512]⟩
abbrev S1x1024 : Shape := ⟨2, ![1, 1024]⟩
abbrev S64x1024 : Shape := ⟨2, ![64, 1024]⟩
abbrev S1x4096 : Shape := ⟨2, ![1, 4096]⟩
abbrev S64x4096 : Shape := ⟨2, ![64, 4096]⟩
abbrev S1024x2048 : Shape := ⟨2, ![1024, 2048]⟩
abbrev S1x8192 : Shape := ⟨2, ![1, 8192]⟩
abbrev S64x8192 : Shape := ⟨2, ![64, 8192]⟩
abbrev S512x4096 : Shape := ⟨2, ![512, 4096]⟩
abbrev S1x512 : Shape := ⟨2, ![1, 512]⟩
abbrev S512x2048 : Shape := ⟨2, ![512, 2048]⟩
abbrev S1x16384 : Shape := ⟨2, ![1, 16384]⟩
abbrev S64x16384 : Shape := ⟨2, ![64, 16384]⟩
abbrev S256x8192 : Shape := ⟨2, ![256, 8192]⟩
abbrev S1x256 : Shape := ⟨2, ![1, 256]⟩
abbrev S64x256 : Shape := ⟨2, ![64, 256]⟩
abbrev S256x2048 : Shape := ⟨2, ![256, 2048]⟩

abbrev nBuf : Space → Nat
  | .hbm => 26
  | .vmem => 36
  | .smem => 0
  | _ => 0

abbrev bufTy : (tb : Table) → Fin (tcTables nBuf tb) → BufTy
  | .hbm, ⟨0, _⟩ => ⟨S64x512, .f32⟩
  | .hbm, ⟨1, _⟩ => ⟨S2048x512, .f32⟩
  | .hbm, ⟨2, _⟩ => ⟨S4096x2048, .f32⟩
  | .hbm, ⟨3, _⟩ => ⟨S8192x4096, .f32⟩
  | .hbm, ⟨4, _⟩ => ⟨S16384x8192, .f32⟩
  | .hbm, ⟨5, _⟩ => ⟨S2048, .f32⟩
  | .hbm, ⟨6, _⟩ => ⟨S4096, .f32⟩
  | .hbm, ⟨7, _⟩ => ⟨S8192, .f32⟩
  | .hbm, ⟨8, _⟩ => ⟨S16384, .f32⟩
  | .hbm, ⟨9, _⟩ => ⟨S2048x512, .i1⟩
  | .hbm, ⟨10, _⟩ => ⟨S4096x2048, .i1⟩
  | .hbm, ⟨11, _⟩ => ⟨S8192x4096, .i1⟩
  | .hbm, ⟨12, _⟩ => ⟨S16384x8192, .i1⟩
  | .hbm, ⟨13, _⟩ => ⟨S64x512, .bf16⟩
  | .hbm, ⟨14, _⟩ => ⟨S1x2048, .f32⟩
  | .hbm, ⟨15, _⟩ => ⟨S2048x512, .i32⟩
  | .hbm, ⟨16, _⟩ => ⟨S64x2048, .bf16⟩
  | .hbm, ⟨17, _⟩ => ⟨S1x4096, .f32⟩
  | .hbm, ⟨18, _⟩ => ⟨S4096x2048, .i32⟩
  | .hbm, ⟨19, _⟩ => ⟨S64x4096, .bf16⟩
  | .hbm, ⟨20, _⟩ => ⟨S1x8192, .f32⟩
  | .hbm, ⟨21, _⟩ => ⟨S8192x4096, .i32⟩
  | .hbm, ⟨22, _⟩ => ⟨S64x8192, .bf16⟩
  | .hbm, ⟨23, _⟩ => ⟨S1x16384, .f32⟩
  | .hbm, ⟨24, _⟩ => ⟨S16384x8192, .i32⟩
  | .hbm, ⟨25, _⟩ => ⟨S64x16384, .f32⟩
  | .local _ .vmem, ⟨0, _⟩ => ⟨S64x512, .bf16⟩
  | .local _ .vmem, ⟨1, _⟩ => ⟨S1024x512, .f32⟩
  | .local _ .vmem, ⟨2, _⟩ => ⟨S1024x512, .f32⟩
  | .local _ .vmem, ⟨3, _⟩ => ⟨S1024x512, .i32⟩
  | .local _ .vmem, ⟨4, _⟩ => ⟨S1024x512, .i32⟩
  | .local _ .vmem, ⟨5, _⟩ => ⟨S1x1024, .f32⟩
  | .local _ .vmem, ⟨6, _⟩ => ⟨S1x1024, .f32⟩
  | .local _ .vmem, ⟨7, _⟩ => ⟨S64x1024, .bf16⟩
  | .local _ .vmem, ⟨8, _⟩ => ⟨S64x1024, .bf16⟩
  | .local _ .vmem, ⟨9, _⟩ => ⟨S64x2048, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .i32⟩
  | .local _ .vmem, ⟨13, _⟩ => ⟨S1024x2048, .i32⟩
  | .local _ .vmem, ⟨14, _⟩ => ⟨S1x1024, .f32⟩
  | .local _ .vmem, ⟨15, _⟩ => ⟨S1x1024, .f32⟩
  | .local _ .vmem, ⟨16, _⟩ => ⟨S64x1024, .bf16⟩
  | .local _ .vmem, ⟨17, _⟩ => ⟨S64x1024, .bf16⟩
  | .local _ .vmem, ⟨18, _⟩ => ⟨S64x4096, .bf16⟩
  | .local _ .vmem, ⟨19, _⟩ => ⟨S512x4096, .f32⟩
  | .local _ .vmem, ⟨20, _⟩ => ⟨S512x4096, .f32⟩
  | .local _ .vmem, ⟨21, _⟩ => ⟨S512x4096, .i32⟩
  | .local _ .vmem, ⟨22, _⟩ => ⟨S512x4096, .i32⟩
  | .local _ .vmem, ⟨23, _⟩ => ⟨S1x512, .f32⟩
  | .local _ .vmem, ⟨24, _⟩ => ⟨S1x512, .f32⟩
  | .local _ .vmem, ⟨25, _⟩ => ⟨S64x512, .bf16⟩
  | .local _ .vmem, ⟨26, _⟩ => ⟨S64x512, .bf16⟩
  | .local _ .vmem, ⟨27, _⟩ => ⟨S64x8192, .bf16⟩
  | .local _ .vmem, ⟨28, _⟩ => ⟨S256x8192, .f32⟩
  | .local _ .vmem, ⟨29, _⟩ => ⟨S256x8192, .f32⟩
  | .local _ .vmem, ⟨30, _⟩ => ⟨S256x8192, .i32⟩
  | .local _ .vmem, ⟨31, _⟩ => ⟨S256x8192, .i32⟩
  | .local _ .vmem, ⟨32, _⟩ => ⟨S1x256, .f32⟩
  | .local _ .vmem, ⟨33, _⟩ => ⟨S1x256, .f32⟩
  | .local _ .vmem, ⟨34, _⟩ => ⟨S64x256, .f32⟩
  | .local _ .vmem, ⟨35, _⟩ => ⟨S64x256, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x4096 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S64x8192 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x8192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x8192 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S64x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bitsLt_bf16_f32 : FTy.bits .bf16 < FTy.bits .f32
  shapeCasts_S2048_S1x2048 : S2048.ShapeCasts S1x2048
  natLt_1_32 : 1 < 32
  inb_S1024x512_S1024x512_0_0 : ∀ a, (![0, 0] : Fin 2 → Nat) a + S1024x512.size a ≤ S1024x512.size a
  h_S1024x512 : 0 < S1024x512.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  packedbf16_S64x1024_S64x1024_0_0 : (Rect.unit (s := S64x1024) ![0, 0] S64x1024.size inb_S64x1024_S64x1024_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S8192_S1x8192 : S8192.ShapeCasts S1x8192
  inb_S512x4096_S512x2048_0_0 : ∀ a, (![0, 0] : Fin 2 → Nat) a + S512x2048.size a ≤ S512x4096.size a
  h_S512x2048 : 0 < S512x2048.numel
  inb_S64x4096_S64x2048_0_0 : ∀ a, (![0, 0] : Fin 2 → Nat) a + S64x2048.size a ≤ S64x4096.size a
  inb_S512x4096_S512x2048_0_2048 : ∀ a, (![0, 2048] : Fin 2 → Nat) a + S512x2048.size a ≤ S512x4096.size a
  inb_S64x4096_S64x2048_0_2048 : ∀ a, (![0, 2048] : Fin 2 → Nat) a + S64x2048.size a ≤ S64x4096.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  packedbf16_S64x512_S64x512_0_0 : (Rect.unit (s := S64x512) ![0, 0] S64x512.size inb_S64x512_S64x512_0_0).PackedRows (EltTy.packing .bf16)
  shapeCasts_S16384_S1x16384 : S16384.ShapeCasts S1x16384
  inb_S256x8192_S256x2048_0_0 : ∀ a, (![0, 0] : Fin 2 → Nat) a + S256x2048.size a ≤ S256x8192.size a
  h_S256x2048 : 0 < S256x2048.numel
  inb_S64x8192_S64x2048_0_0 : ∀ a, (![0, 0] : Fin 2 → Nat) a + S64x2048.size a ≤ S64x8192.size a
  inb_S256x8192_S256x2048_0_2048 : ∀ a, (![0, 2048] : Fin 2 → Nat) a + S256x2048.size a ≤ S256x8192.size a
  inb_S64x8192_S64x2048_0_2048 : ∀ a, (![0, 2048] : Fin 2 → Nat) a + S64x2048.size a ≤ S64x8192.size a
  inb_S256x8192_S256x2048_0_4096 : ∀ a, (![0, 4096] : Fin 2 → Nat) a + S256x2048.size a ≤ S256x8192.size a
  inb_S64x8192_S64x2048_0_4096 : ∀ a, (![0, 4096] : Fin 2 → Nat) a + S64x2048.size a ≤ S64x8192.size a
  inb_S256x8192_S256x2048_0_6144 : ∀ a, (![0, 6144] : Fin 2 → Nat) a + S256x2048.size a ≤ S256x8192.size a
  inb_S64x8192_S64x2048_0_6144 : ∀ a, (![0, 6144] : Fin 2 → Nat) a + S64x2048.size a ≤ S64x8192.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S64x512_S1024x512_S64x1024_1_1_0_0_n_n_wf : DotDims.WF S64x512 S1024x512 S64x1024 [1] [1] [0] [0] [] []
  dot_S64x2048_S1024x2048_S64x1024_1_1_0_0_n_n_wf : DotDims.WF S64x2048 S1024x2048 S64x1024 [1] [1] [0] [0] [] []
  dot_S64x2048_S512x2048_S64x512_1_1_0_0_n_n_wf : DotDims.WF S64x2048 S512x2048 S64x512 [1] [1] [0] [0] [] []
  dot_S64x2048_S256x2048_S64x256_1_1_0_0_n_n_wf : DotDims.WF S64x2048 S256x2048 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .bf16 = 32 ∨ (Rect.block (s := S64x512) S64x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x512.size a
  hwx0_1 : ∀ i : grid0.Coords, EltTy.bits .f32 = 32 ∨ (Rect.block (s := S2048x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x512.size a
  hwx0_2 : ∀ i : grid0.Coords, EltTy.bits .i32 = 32 ∨ (Rect.block (s := S2048x512) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x2048.size a
  hwx0_4 : ∀ i : grid0.Coords, EltTy.bits .bf16 = 32 ∨ (Rect.block (s := S64x2048) S64x1024.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .bf16 = 32 ∨ (Rect.block (s := S64x2048) S64x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x2048.size a
  hwx1_1 : ∀ i : grid1.Coords, EltTy.bits .f32 = 32 ∨ (Rect.block (s := S4096x2048) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S4096x2048.size a
  hwx1_2 : ∀ i : grid1.Coords, EltTy.bits .i32 = 32 ∨ (Rect.block (s := S4096x2048) S1024x2048.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1024.size a ≤ S64x4096.size a
  hwx1_4 : ∀ i : grid1.Coords, EltTy.bits .bf16 = 32 ∨ (Rect.block (s := S64x4096) S64x1024.size (cc1_transform_4 i) (hinb1_4 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S64x4096.size a
  hwx2_0 : ∀ i : grid2.Coords, EltTy.bits .bf16 = 32 ∨ (Rect.block (s := S64x4096) S64x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S8192x4096.size a
  hwx2_1 : ∀ i : grid2.Coords, EltTy.bits .f32 = 32 ∨ (Rect.block (s := S8192x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S8192x4096.size a
  hwx2_2 : ∀ i : grid2.Coords, EltTy.bits .i32 = 32 ∨ (Rect.block (s := S8192x4096) S512x4096.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x8192.size a
  hwx2_3 : ∀ i : grid2.Coords, EltTy.bits .f32 = 32 ∨ (Rect.block (s := S1x8192) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x512.size a ≤ S64x8192.size a
  hwx2_4 : ∀ i : grid2.Coords, EltTy.bits .bf16 = 32 ∨ (Rect.block (s := S64x8192) S64x512.size (cc2_transform_4 i) (hinb2_4 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x8192.size a ≤ S64x8192.size a
  hwx3_0 : ∀ i : grid3.Coords, EltTy.bits .bf16 = 32 ∨ (Rect.block (s := S64x8192) S64x8192.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x8192.size a ≤ S16384x8192.size a
  hwx3_1 : ∀ i : grid3.Coords, EltTy.bits .f32 = 32 ∨ (Rect.block (s := S16384x8192) S256x8192.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x8192.size a ≤ S16384x8192.size a
  hwx3_2 : ∀ i : grid3.Coords, EltTy.bits .i32 = 32 ∨ (Rect.block (s := S16384x8192) S256x8192.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x16384.size a
  hwx3_3 : ∀ i : grid3.Coords, EltTy.bits .f32 = 32 ∨ (Rect.block (s := S1x16384) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S64x256.size a ≤ S64x16384.size a
  hwx3_4 : ∀ i : grid3.Coords, EltTy.bits .f32 = 32 ∨ (Rect.block (s := S64x16384) S64x256.size (cc3_transform_4 i) (hinb3_4 i)).WholeWords (EltTy.packing .f32)

variable [Facts₀]

def dot_S64x512_S1024x512_S64x1024_1_1_0_0_n_n : DotDims S64x512 S1024x512 S64x1024 where
  lhsContracting := [1]
  rhsContracting := [1]
  lhsNonContracting := [0]
  rhsNonContracting := [0]
  lhsBatch := []
  rhsBatch := []
  wf := dot_S64x512_S1024x512_S64x1024_1_1_0_0_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf
def dot_S64x2048_S512x2048_S64x512_1_1_0_0_n_n : DotDims S64x2048 S512x2048 S64x512 where
  lhsContracting := [1]
  rhsContracting := [1]
  lhsNonContracting := [0]
  rhsNonContracting := [0]
  lhsBatch := []
  rhsBatch := []
  wf := dot_S64x2048_S512x2048_S64x512_1_1_0_0_n_n_wf
def dot_S64x2048_S256x2048_S64x256_1_1_0_0_n_n : DotDims S64x2048 S256x2048 S64x256 where
  lhsContracting := [1]
  rhsContracting := [1]
  lhsNonContracting := [0]
  rhsNonContracting := [0]
  lhsBatch := []
  rhsBatch := []
  wf := dot_S64x2048_S256x2048_S64x256_1_1_0_0_n_n_wf

abbrev win0_0 : Pipeline.Window sig grid0 :=
  Pipeline.Window.ofSpec (Memref.whole main_v0) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S64x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S512x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S64x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9) S64x8192.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x8192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S256x8192.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S64x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S64x512 : Shape := ⟨2, ![64, 512]⟩
abbrev S2048x512 : Shape := ⟨2, ![2048, 512]⟩
abbrev S4096x2048 : Shape := ⟨2, ![4096, 2048]⟩
abbrev S8192x4096 : Shape := ⟨2, ![8192, 4096]⟩
abbrev S16384x8192 : Shape := ⟨2, ![16384, 8192]⟩
abbrev S2048 : Shape := ⟨1, ![2048]⟩
abbrev S4096 : Shape := ⟨1, ![4096]⟩
abbrev S8192 : Shape := ⟨1, ![8192]⟩
abbrev S16384 : Shape := ⟨1, ![16384]⟩
abbrev S512x2048 : Shape := ⟨2, ![512, 2048]⟩
abbrev S64x2048 : Shape := ⟨2, ![64, 2048]⟩
abbrev S1x2048 : Shape := ⟨2, ![1, 2048]⟩
abbrev S_ : Shape := ⟨0, ![]⟩
abbrev S2048x4096 : Shape := ⟨2, ![2048, 4096]⟩
abbrev S64x4096 : Shape := ⟨2, ![64, 4096]⟩
abbrev S1x4096 : Shape := ⟨2, ![1, 4096]⟩
abbrev S4096x8192 : Shape := ⟨2, ![4096, 8192]⟩
abbrev S64x8192 : Shape := ⟨2, ![64, 8192]⟩
abbrev S1x8192 : Shape := ⟨2, ![1, 8192]⟩
abbrev S8192x16384 : Shape := ⟨2, ![8192, 16384]⟩
abbrev S64x16384 : Shape := ⟨2, ![64, 16384]⟩
abbrev S1x16384 : Shape := ⟨2, ![1, 16384]⟩

abbrev nBuf : Space → Nat
  | .hbm => 50
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S2048x512, .f32⟩
  | .hbm, ⟨2, _⟩ => ⟨S4096x2048, .f32⟩
  | .hbm, ⟨3, _⟩ => ⟨S8192x4096, .f32⟩
  | .hbm, ⟨4, _⟩ => ⟨S16384x8192, .f32⟩
  | .hbm, ⟨5, _⟩ => ⟨S2048, .f32⟩
  | .hbm, ⟨6, _⟩ => ⟨S4096, .f32⟩
  | .hbm, ⟨7, _⟩ => ⟨S8192, .f32⟩
  | .hbm, ⟨8, _⟩ => ⟨S16384, .f32⟩
  | .hbm, ⟨9, _⟩ => ⟨S2048x512, .i1⟩
  | .hbm, ⟨10, _⟩ => ⟨S4096x2048, .i1⟩
  | .hbm, ⟨11, _⟩ => ⟨S8192x4096, .i1⟩
  | .hbm, ⟨12, _⟩ => ⟨S16384x8192, .i1⟩
  | .hbm, ⟨13, _⟩ => ⟨S2048x512, .f32⟩
  | .hbm, ⟨14, _⟩ => ⟨S2048x512, .f32⟩
  | .hbm, ⟨15, _⟩ => ⟨S512x2048, .f32⟩
  | .hbm, ⟨16, _⟩ => ⟨S64x2048, .f32⟩
  | .hbm, ⟨17, _⟩ => ⟨S1x2048, .f32⟩
  | .hbm, ⟨18, _⟩ => ⟨S64x2048, .f32⟩
  | .hbm, ⟨19, _⟩ => ⟨S64x2048, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S4096x2048, .f32⟩
  | .hbm, ⟨24, _⟩ => ⟨S4096x2048, .f32⟩
  | .hbm, ⟨25, _⟩ => ⟨S2048x4096, .f32⟩
  | .hbm, ⟨26, _⟩ => ⟨S64x4096, .f32⟩
  | .hbm, ⟨27, _⟩ => ⟨S1x4096, .f32⟩
  | .hbm, ⟨28, _⟩ => ⟨S64x4096, .f32⟩
  | .hbm, ⟨29, _⟩ => ⟨S64x4096, .f32⟩
  | .hbm, ⟨30, _⟩ => ⟨S_, .f32⟩
  | .hbm, ⟨31, _⟩ => ⟨S64x4096, .f32⟩
  | .hbm, ⟨32, _⟩ => ⟨S64x4096, .f32⟩
  | .hbm, ⟨33, _⟩ => ⟨S8192x4096, .f32⟩
  | .hbm, ⟨34, _⟩ => ⟨S8192x4096, .f32⟩
  | .hbm, ⟨35, _⟩ => ⟨S4096x8192, .f32⟩
  | .hbm, ⟨36, _⟩ => ⟨S64x8192, .f32⟩
  | .hbm, ⟨37, _⟩ => ⟨S1x8192, .f32⟩
  | .hbm, ⟨38, _⟩ => ⟨S64x8192, .f32⟩
  | .hbm, ⟨39, _⟩ => ⟨S64x8192, .f32⟩
  | .hbm, ⟨40, _⟩ => ⟨S_, .f32⟩
  | .hbm, ⟨41, _⟩ => ⟨S64x8192, .f32⟩
  | .hbm, ⟨42, _⟩ => ⟨S64x8192, .f32⟩
  | .hbm, ⟨43, _⟩ => ⟨S16384x8192, .f32⟩
  | .hbm, ⟨44, _⟩ => ⟨S16384x8192, .f32⟩
  | .hbm, ⟨45, _⟩ => ⟨S8192x16384, .f32⟩
  | .hbm, ⟨46, _⟩ => ⟨S64x16384, .f32⟩
  | .hbm, ⟨47, _⟩ => ⟨S1x16384, .f32⟩
  | .hbm, ⟨48, _⟩ => ⟨S64x16384, .f32⟩
  | .hbm, ⟨49, _⟩ => ⟨S64x16384, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_cst : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_cst : Ref sig .tc := ⟨.hbm, 40, rfl⟩
abbrev main_call2_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  transposes_S2048x512_S512x2048_1_0 : S2048x512.Transposes [1, 0] S512x2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  transposes_S8192x4096_S4096x8192_1_0 : S8192x4096.Transposes [1, 0] S4096x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S_S64x8192 : S_.BroadcastsInDim S64x8192 (![] : Fin 0 → Fin S64x8192.rank)
  transposes_S16384x8192_S8192x16384_1_0 : S16384x8192.Transposes [1, 0] S8192x16384
  bcast_S16384_S1x16384_1 : S16384.BroadcastsInDim S1x16384 (![1] : Fin 1 → Fin S1x16384.rank)
  bcast_S1x16384_S64x16384_0_1 : S1x16384.BroadcastsInDim S64x16384 (![0, 1] : Fin 2 → Fin S64x16384.rank)
  dot_S64x512_S512x2048_S64x2048_1_0_0_1_n_n_wf : DotDims.WF S64x512 S512x2048 S64x2048 [1] [0] [0] [1] [] []
  dot_S64x2048_S2048x4096_S64x4096_1_0_0_1_n_n_wf : DotDims.WF S64x2048 S2048x4096 S64x4096 [1] [0] [0] [1] [] []
  dot_S64x4096_S4096x8192_S64x8192_1_0_0_1_n_n_wf : DotDims.WF S64x4096 S4096x8192 S64x8192 [1] [0] [0] [1] [] []
  dot_S64x8192_S8192x16384_S64x16384_1_0_0_1_n_n_wf : DotDims.WF S64x8192 S8192x16384 S64x16384 [1] [0] [0] [1] [] []

variable [Facts₀]

def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S64x2048_S2048x4096_S64x4096_1_0_0_1_n_n : DotDims S64x2048 S2048x4096 S64x4096 where
  lhsContracting := [1]
  rhsContracting := [0]
  lhsNonContracting := [0]
  rhsNonContracting := [1]
  lhsBatch := []
  rhsBatch := []
  wf := dot_S64x2048_S2048x4096_S64x4096_1_0_0_1_n_n_wf
def dot_S64x4096_S4096x8192_S64x8192_1_0_0_1_n_n : DotDims S64x4096 S4096x8192 S64x8192 where
  lhsContracting := [1]
  rhsContracting := [0]
  lhsNonContracting := [0]
  rhsNonContracting := [1]
  lhsBatch := []
  rhsBatch := []
  wf := dot_S64x4096_S4096x8192_S64x8192_1_0_0_1_n_n_wf
def dot_S64x8192_S8192x16384_S64x16384_1_0_0_1_n_n : DotDims S64x8192 S8192x16384 S64x16384 where
  lhsContracting := [1]
  rhsContracting := [0]
  lhsNonContracting := [0]
  rhsNonContracting := [1]
  lhsBatch := []
  rhsBatch := []
  wf := dot_S64x8192_S8192x16384_S64x16384_1_0_0_1_n_n_wf

class Facts : Prop extends Facts₀ where

variable [Facts]
-- ==== Proof.KernelRun.lean ====
/-
  The kernel program's run with its RESULT named.

  The program is four pallas_calls among short stretches of host operations.  Run from any memory with zero
  counters, every weakly fair execution terminates without a fault; in the final state the result buffer holds what
  the fold of the segments leaves there — the contents after the last pallas_call's write-backs — and the thirteen
  argument buffers hold what they held at launch.  This is the library's launch theorem for a program of several
  regions, applied to the segments and the per-region proof data of the frame certificate, with the final thread state
  (every unscoped buffer at the last boundary's contents) read at the result buffer as well as at the arguments.
-/
import proofs.«161399_j27650999452105_2_alg».proof.Proof.Gen.KernelIdeal.Frame

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the theorem's implicit arguments are determined by its conclusion only through plain definitions, which this
-- option lets the unifier open
set_option backward.isDefEq.respectTransparency.types false in
/-- Every weakly fair execution of the kernel program terminates, nothing faulting; the result buffer ends at the
    contents the last boundary of the fold gives it, and the arguments end as launched. -/
theorem run : θ_run defs (onTc (τ := τ) (main (F := F))) ⟨m, fun _ => 0, ρ⟩ (fun r => ∀ c : Dev nD,
      r.2.mem ((c.tc : Thread nD τ).loc main_v12) = W8 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state: the cells' initial tokens, and nothing per device
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      -- each thread starts holding its unscoped buffers at the launch memory, its generator register, and owing nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      -- the last thread state holds every unscoped buffer at the last boundary's contents: read them off the final state
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v12 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.RunValue

end
-- ==== Proof.Spec.lean ====
/-
  The masked multi-layer perceptron, as a function on the extended reals.

  One layer takes an activation matrix x [B, K], a weight matrix W [N, K], a one-bit mask of W's shape and a bias
  b [N], and returns the matrix [B, N] whose entry (p, q) is

      sum over k of  x (p, k) * (W (q, k) where the mask bit (q, k) is set, 0 elsewhere)   +   b q,

  optionally followed by max (., 0) (the bias is given as a function of the column q).  A weight times the mask bit
  read as the number 0 or 1 is that kept weight (on the extended reals 0 * w = 0 also for an infinite w), and so is a
  select between the weight and zero on the bit: the two ways the programs spell the masking.  The contraction may be
  taken in two or four tiles of the axis k: only the commutative-monoid laws of the sum are used.
-/
import Idealize.ShloMosaic.PureOps.Ideal.Laws
import Idealize.ShloMosaic.Lib.ValueIdx

noncomputable section

open scoped BigOperators

namespace Cert.MaskedMlp

open Idealize.ShloMosaic Idealize.ShloMosaic.ValueIdx

/-- A weight where its mask bit is set, zero where it is not. -/
def keep (m : BitVec 1) (w : EReal) : EReal := if m = 1#1 then w else 0

theorem keep_one (w : EReal) : keep 1#1 w = w := if_pos rfl
theorem keep_zero (w : EReal) : keep 0#1 w = 0 := if_neg (by decide)

/-- The select between the weight and the zero constant on the bit is the kept weight. -/
theorem select_keep (c : BitVec 1) (w : EReal) :
    Scalar.select c w (Ideal.ofBits .f32 0x00000000#32) = keep c w := by
  rcases BitVec.eq_zero_or_eq_one c with h | h <;> subst h
  · rw [ValueIdx.select_zero, keep_zero, Ideal.ofBits_zero_f32]
  · rw [ValueIdx.select_one, keep_one]

/-- The same with the zero constant already read as the number 0. -/
theorem select_keep0 (c : BitVec 1) (w : EReal) : Scalar.select c w 0 = keep c w := by
  rw [← select_keep, Ideal.ofBits_zero_f32]

/-- The weight times the bit read as a number is the kept weight. -/
theorem mul_bit_keep (c : BitVec 1) (w : EReal) : w * (((c.toNat : ℝ)) : EReal) = keep c w := by
  rcases BitVec.eq_zero_or_eq_one c with h | h <;> subst h
  · rw [keep_zero]; simp
  · rw [keep_one]; simp

/-- A bit widened to a word is non-zero exactly when it is set. -/
theorem ne_zero_setWidth (c : BitVec 1) : IntOp.cmpi .ne (c.setWidth 32) 0#32 = c := by
  rcases BitVec.eq_zero_or_eq_one c with h | h <;> subst h <;> decide

variable {B K N : ℕ}

/-- Entry (p, q) of one masked linear layer, before the activation. -/
def linAt (x : (⟨2, ![B, K]⟩ : Shape).Idx → EReal) (W : (⟨2, ![N, K]⟩ : Shape).Idx → EReal)
    (mk : (⟨2, ![N, K]⟩ : Shape).Idx → BitVec 1) (b : Fin N → EReal) (p : Fin B) (q : Fin N) : EReal :=
  (∑ k : Fin K, x (ix2 p k) * keep (mk (ix2 q k)) (W (ix2 q k))) + b q

/-- One masked linear layer. -/
def lin (x : (⟨2, ![B, K]⟩ : Shape).Idx → EReal) (W : (⟨2, ![N, K]⟩ : Shape).Idx → EReal)
    (mk : (⟨2, ![N, K]⟩ : Shape).Idx → BitVec 1) (b : Fin N → EReal) :
    (⟨2, ![B, N]⟩ : Shape).Idx → EReal :=
  fun j => linAt x W mk b (j 0) (j 1)

/-- max (., 0), entry by entry. -/
def relu (v : (⟨2, ![B, N]⟩ : Shape).Idx → EReal) : (⟨2, ![B, N]⟩ : Shape).Idx → EReal := fun j => max (v j) 0

theorem lin_ix2 (x : (⟨2, ![B, K]⟩ : Shape).Idx → EReal) (W : (⟨2, ![N, K]⟩ : Shape).Idx → EReal)
    (mk : (⟨2, ![N, K]⟩ : Shape).Idx → BitVec 1) (b : Fin N → EReal) (p : Fin B) (q : Fin N) :
    lin x W mk b (ix2 p q) = linAt x W mk b p q := rfl

theorem relu_ix2 (v : (⟨2, ![B, N]⟩ : Shape).Idx → EReal) (p : Fin B) (q : Fin N) :
    relu v (ix2 p q) = max (v (ix2 p q)) 0 := rfl

/-- An axis of T + T positions summed as two tiles of T. -/
theorem sum_chunks2 {β : Type*} [AddCommMonoid β] {T : ℕ} (hK : K = T + T) (f : Fin K → β) :
    (∑ j : Fin T, f ⟨j.val, by omega⟩) + (∑ j : Fin T, f ⟨T + j.val, by omega⟩) = ∑ k : Fin K, f k := by
  subst hK
  rw [Fin.sum_univ_add]
  rfl

/-- An axis of four times T positions summed as four tiles of T. -/
theorem sum_chunks4 {β : Type*} [AddCommMonoid β] {T : ℕ} (hK : K = T + T + T + T) (f : Fin K → β) :
    (∑ j : Fin T, f ⟨j.val, by omega⟩) + (∑ j : Fin T, f ⟨T + j.val, by omega⟩)
      + (∑ j : Fin T, f ⟨T + T + j.val, by omega⟩) + (∑ j : Fin T, f ⟨T + T + T + j.val, by omega⟩) = ∑ k : Fin K, f k := by
  subst hK
  rw [Fin.sum_univ_add, Fin.sum_univ_add, Fin.sum_univ_add]
  rfl

/-- The layer's entry from the contraction taken in two tiles. -/
theorem linAt_chunks2 {T : ℕ} (hK : K = T + T) (x : (⟨2, ![B, K]⟩ : Shape).Idx → EReal)
    (W : (⟨2, ![N, K]⟩ : Shape).Idx → EReal) (mk : (⟨2, ![N, K]⟩ : Shape).Idx → BitVec 1) (b : Fin N → EReal)
    (p : Fin B) (q : Fin N) (S0 S1 : EReal)
    (h0 : S0 = ∑ j : Fin T, x (ix2 p ⟨j.val, by omega⟩) * keep (mk (ix2 q ⟨j.val, by omega⟩)) (W (ix2 q ⟨j.val, by omega⟩)))
    (h1 : S1 = ∑ j : Fin T, x (ix2 p ⟨T + j.val, by omega⟩) * keep (mk (ix2 q ⟨T + j.val, by omega⟩)) (W (ix2 q ⟨T + j.val, by omega⟩))) :
    S0 + S1 + b q = linAt x W mk b p q := by
  subst h0 h1
  unfold linAt
  exact congrArg (· + b q) (sum_chunks2 hK fun k => x (ix2 p k) * keep (mk (ix2 q k)) (W (ix2 q k)))

/-- The layer's entry from the contraction taken in four tiles. -/
theorem linAt_chunks4 {T : ℕ} (hK : K = T + T + T + T) (x : (⟨2, ![B, K]⟩ : Shape).Idx → EReal)
    (W : (⟨2, ![N, K]⟩ : Shape).Idx → EReal) (mk : (⟨2, ![N, K]⟩ : Shape).Idx → BitVec 1) (b : Fin N → EReal)
    (p : Fin B) (q : Fin N) (S0 S1 S2 S3 : EReal)
    (h0 : S0 = ∑ j : Fin T, x (ix2 p ⟨j.val, by omega⟩) * keep (mk (ix2 q ⟨j.val, by omega⟩)) (W (ix2 q ⟨j.val, by omega⟩)))
    (h1 : S1 = ∑ j : Fin T, x (ix2 p ⟨T + j.val, by omega⟩) * keep (mk (ix2 q ⟨T + j.val, by omega⟩)) (W (ix2 q ⟨T + j.val, by omega⟩)))
    (h2 : S2 = ∑ j : Fin T, x (ix2 p ⟨T + T + j.val, by omega⟩) * keep (mk (ix2 q ⟨T + T + j.val, by omega⟩)) (W (ix2 q ⟨T + T + j.val, by omega⟩)))
    (h3 : S3 = ∑ j : Fin T, x (ix2 p ⟨T + T + T + j.val, by omega⟩) * keep (mk (ix2 q ⟨T + T + T + j.val, by omega⟩)) (W (ix2 q ⟨T + T + T + j.val, by omega⟩))) :
    S0 + S1 + S2 + S3 + b q = linAt x W mk b p q := by
  subst h0 h1 h2 h3
  unfold linAt
  exact congrArg (· + b q) (sum_chunks4 hK fun k => x (ix2 p k) * keep (mk (ix2 q k)) (W (ix2 q k)))

end Cert.MaskedMlp

end
-- ==== Proof.LibRowDot.lean ====
/-
  A matrix product with BOTH operands contracted along their second axis, [M, K] × [N, K] → [M, N], read at an index
  over the extended reals.

  This is a product against a transposed right operand that is never transposed in memory: with the contraction on
  axis 1 of the left operand and axis 1 of the right operand and no batch axis, the entry (p, q) of the product is the
  sum over k of lhs (p, k) · rhs (q, k) — the inner product of row p of the left operand with row q of the right one.
  It holds for a matrix unit's product into a zero accumulator (matmul_zero_apply), into any accumulator
  (matmul_acc_apply), and for the host's dot_general (dotGeneral_apply), whatever precision or schedule key they
  carry. All three follow from re-indexing the sum over the one-axis contraction shape by its coordinate (contr_sum).
-/
import Idealize.ShloMosaic.PureOps.Ideal.Laws
import Idealize.ShloMosaic.Lib.ValueIdx

noncomputable section

open scoped BigOperators

namespace Cert.RowDot

open Idealize.ShloMosaic Idealize.ShloMosaic.ValueIdx

variable {M K N : Nat}

/-- The dimension numbers of the row-by-row product. -/
abbrev rowDims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable (wf : DotDims.WF ⟨2, ![M, K]⟩ ⟨2, ![N, K]⟩ ⟨2, ![M, N]⟩ [1] [1] [0] [0] [] [])

/-- The left operand's row coordinate is the result's row, whatever the contraction index. -/
theorem lhs_row (j : (⟨2, ![M, N]⟩ : Shape).Idx) (r : (rowDims M K N wf).contr.Idx) :
    ((rowDims M K N wf).lhsIdx j r 0).val = (j 0).val := by
  unfold DotDims.lhsIdx
  rw [dif_neg (show ¬ (0 : Fin 2) ∈ (rowDims M K N wf).lhsBatch from List.not_mem_nil),
    dif_pos (show (0 : Fin 2) ∈ (rowDims M K N wf).lhsNonContracting from List.mem_singleton.mpr rfl)]
  rfl

/-- The right operand's ROW coordinate is the result's column, whatever the contraction index. -/
theorem rhs_row (j : (⟨2, ![M, N]⟩ : Shape).Idx) (r : (rowDims M K N wf).contr.Idx) :
    ((rowDims M K N wf).rhsIdx j r 0).val = (j 1).val := by
  unfold DotDims.rhsIdx
  rw [dif_neg (show ¬ (0 : Fin 2) ∈ (rowDims M K N wf).rhsBatch from List.not_mem_nil),
    dif_pos (show (0 : Fin 2) ∈ (rowDims M K N wf).rhsNonContracting from List.mem_singleton.mpr rfl)]
  rfl

/-- The sum over the contraction shape is the sum over k of lhs (p, k) · rhs (q, k). -/
theorem contr_sum (lhs : (⟨2, ![M, K]⟩ : Shape).Idx → EReal) (rhs : (⟨2, ![N, K]⟩ : Shape).Idx → EReal) (p : Fin M) (q : Fin N) :
    ∑ k : (rowDims M K N wf).contr.Idx, lhs ((rowDims M K N wf).lhsIdx (ix2 p q) k) * rhs ((rowDims M K N wf).rhsIdx (ix2 p q) k)
      = ∑ k : Fin K, lhs (ix2 p k) * rhs (ix2 q k) := by
  rw [← Equiv.sum_comp (contrEquiv1 (rowDims M K N wf) K rfl rfl).symm]
  refine Finset.sum_congr rfl fun k _ => ?_
  have hk := contrEquiv1_symm_val (rowDims M K N wf) K rfl rfl k
  have el : (rowDims M K N wf).lhsIdx (ix2 p q) ((contrEquiv1 (rowDims M K N wf) K rfl rfl).symm k) = ix2 p k :=
    funext fun a => Fin.ext (by
      match a with
      | ⟨0, _⟩ => exact lhs_row wf _ _
      | ⟨1, _⟩ => exact ((rowDims M K N wf).lhsIdx_val_of_single rfl _ _).trans hk)
  have er : (rowDims M K N wf).rhsIdx (ix2 p q) ((contrEquiv1 (rowDims M K N wf) K rfl rfl).symm k) = ix2 q k :=
    funext fun a => Fin.ext (by
      match a with
      | ⟨0, _⟩ => exact rhs_row wf _ _
      | ⟨1, _⟩ => exact ((rowDims M K N wf).rhsIdx_val_of_single rfl _ _).trans hk)
  rw [el, er]

/-- A MATRIX UNIT'S PRODUCT INTO ANY ACCUMULATOR, read at (p, q), for ANY dimension numbers of the row-by-row form. -/
theorem matmul_acc_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂)
    (acc : FVec Ideal ⟨2, ![M, N]⟩ .f32) (p : Fin M) (q : Fin N) :
    FloatOps.matmul d prec lhs rhs acc (ix2 p q) = acc (ix2 p q) + ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_apply]
  exact congrArg (acc (ix2 p q) + ·) (contr_sum wf lhs rhs p q)

/-- The same INTO A ZERO ACCUMULATOR: just the sum. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the row-by-row form. -/
theorem dotGeneral_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.RowDot

end
-- ==== Proof.Layer0.lean ====
/-
  The first pallas_call of the kernel program: one masked linear layer followed by max (., 0), [64, 512] -> [64, 2048].

  Its grid has 2 points; point t takes rows t * 1024 .. t * 1024 + 1023 of the weights and of the mask, the same
  columns of the one-row bias, and the whole activation matrix, and writes columns t * 1024 .. of the output.  Entry
  (p, q) of the block it writes is max (., 0) of the sum over the contraction axis k of x (p, k) times the weight (q, k) where
  the mask word (q, k) is non-zero (zero elsewhere), plus the bias of the column.  Read through the windows' blocks this is block t of
  ONE function G of the four arrays the pallas_call finds, the blocks tile the output, and so the output array ends
  holding G of those arrays.  Everything is stated at ANY contents V of the buffers at the pallas_call's entry.
-/
import proofs.«161399_j27650999452105_2_alg».proof.Proof.Gen.KernelIdeal.Frame
import proofs.«161399_j27650999452105_2_alg».proof.Proof.Spec
import proofs.«161399_j27650999452105_2_alg».proof.Proof.LibRowDot
import Idealize.ShloMosaic.Lib.Pipeline.Value
import Idealize.ShloMosaic.Lib.ValueLayout

noncomputable section

open scoped BigOperators

namespace Cert.KernelIdeal.Layer0

open Idealize.ShloMosaic Idealize.ShloMosaic.ValueIdx Idealize.ShloMosaic.TcCoe Idealize.SL.Sem
open Cert.KernelIdeal Cert.KernelIdeal.Gen Cert.MaskedMlp

/-- The body's stored value at (p, q), from the blocks it loads whole. -/
theorem pay_apply (v1 : Vec Ideal S1024x512 .f32) (v2 : Vec Ideal S1024x512 .i32) (v4 : Vec Ideal S64x512 .bf16)
    (v11 : Vec Ideal S1x1024 .f32) (p : Fin 64) (q : Fin 1024) :
    k0_pay1 (F := Ideal) v1 v2 v4 v11 (ix2 p q)
      = max (linAt v4 v1 (fun i => IntOp.cmpi .ne (v2 i) 0#32) (fun q => v11 (ix2 0 q)) p q) 0 := by
  unfold k0_pay1
  simp only [truncf_apply, maximumf_apply, addf_apply, broadcast_apply, matmul]
  rw [Cert.RowDot.matmul_zero_apply _ rfl rfl rfl rfl rfl rfl, shapeCast_self, shapeCast_self,
    broadcastTo_1b_ab_apply]
  simp only [truncf_apply, select_apply, cmpi, constantI_apply, broadcast_apply, Ideal.ofBits_def, select_keep,
    Ideal.ofBits_zero_f32, zero_add]
  rfl

theorem hz : (![0, 0] : Fin 2 → Nat) = fun _ => 0 := funext fun a => by fin_cases a <;> rfl

/-- The layer as this pallas_call computes it, of the four arrays it finds: activations, weights, the mask as
    words (non-zero = kept) and the bias as a one-row matrix. -/
def G (x : S64x512.Idx → EReal) (W : S2048x512.Idx → EReal) (m32 : S2048x512.Idx → BitVec 32) (b2 : S1x2048.Idx → EReal) :
    S64x2048.Idx → EReal :=
  relu (lin x W (fun i => IntOp.cmpi .ne (m32 i) 0#32) (fun q => b2 (ix2 0 q)))

/-- The block indices of the five windows at a grid point, decided over the grid. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Row q of block t of the weights is row t * 1024 + q of the array. -/
def row (t : Fin cfg0.N) (q : Fin 1024) : Fin 2048 :=
  ⟨t.val * 1024 + q.val, by have ht : t.val < grid0.N := t.isLt; rw [N_0] at ht; omega⟩

variable (V : (c : Dev nD) → (b : Ref sig .tc) → Buf (Elt Ideal) ((c : Thread nD τ).loc b))

/-- The activations' block is the whole array at every point. -/
theorem read_x (c : Dev nD) (t : Fin cfg0.N) (p : Fin 64) (k : Fin 512) :
    iblk0 V c 0 t (ix2 p k) = V c main_v0 (ix2 p k) := by
  obtain ⟨e0, e1, -⟩ := idx_facts t
  show V c main_v0 (((cfg0.win 0).blk t).view.emb (ix2 p k)) = V c main_v0 (ix2 p k)
  refine congrArg _ (funext fun a => Fin.ext ?_)
  match a with
  | ⟨0, _⟩ => show win0_0.index t (0 : Fin 2) * 64 + 1 * p.val = p.val; omega
  | ⟨1, _⟩ => show win0_0.index t (1 : Fin 2) * 512 + 1 * k.val = k.val; omega

/-- Row q of the weights' block t is row t * 1024 + q of the weights. -/
theorem read_w (c : Dev nD) (t : Fin cfg0.N) (q : Fin 1024) (k : Fin 512) :
    iblk0 V c 1 t (ix2 q k) = V c main_arg1 (ix2 (row t q) k) := by
  obtain ⟨-, -, e0, e1, -⟩ := idx_facts t
  show V c main_arg1 (((cfg0.win 1).blk t).view.emb (ix2 q k)) = V c main_arg1 (ix2 (row t q) k)
  refine congrArg _ (funext fun a => Fin.ext ?_)
  match a with
  | ⟨0, _⟩ => show win0_1.index t (0 : Fin 2) * 1024 + 1 * q.val = t.val * 1024 + q.val; omega
  | ⟨1, _⟩ => show win0_1.index t (1 : Fin 2) * 512 + 1 * k.val = k.val; omega

/-- The same for the mask. -/
theorem read_m (c : Dev nD) (t : Fin cfg0.N) (q : Fin 1024) (k : Fin 512) :
    iblk0 V c 2 t (ix2 q k) = V c main_v2 (ix2 (row t q) k) := by
  obtain ⟨-, -, -, -, e0, e1, -⟩ := idx_facts t
  show V c main_v2 (((cfg0.win 2).blk t).view.emb (ix2 q k)) = V c main_v2 (ix2 (row t q) k)
  refine congrArg _ (funext fun a => Fin.ext ?_)
  match a with
  | ⟨0, _⟩ => show win0_2.index t (0 : Fin 2) * 1024 + 1 * q.val = t.val * 1024 + q.val; omega
  | ⟨1, _⟩ => show win0_2.index t (1 : Fin 2) * 512 + 1 * k.val = k.val; omega

/-- Column q of the bias' block t is column t * 1024 + q of the one-row bias. -/
theorem read_b (c : Dev nD) (t : Fin cfg0.N) (q : Fin 1024) :
    iblk0 V c 3 t (ix2 0 q) = V c main_v1 (ix2 0 (row t q)) := by
  obtain ⟨-, -, -, -, -, -, e0, e1, -⟩ := idx_facts t
  show V c main_v1 (((cfg0.win 3).blk t).view.emb (ix2 0 q)) = V c main_v1 (ix2 0 (row t q))
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = t.val * 1024 + q.val; omega

/-- Entry (p, q) of the output's block t is entry (p, t * 1024 + q) of the output. -/
theorem emb_out (t : Fin cfg0.N) (p : Fin 64) (q : Fin 1024) :
    ((cfg0.win 4).blk t).view.emb (ix2 p q) = ix2 p (row t q) := by
  obtain ⟨-, -, -, -, -, -, -, -, e0, e1⟩ := idx_facts t
  refine funext fun a => Fin.ext ?_
  match a with
  | ⟨0, _⟩ => show win0_4.index t (0 : Fin 2) * 64 + 1 * p.val = p.val; omega
  | ⟨1, _⟩ => show win0_4.index t (1 : Fin 2) * 1024 + 1 * q.val = t.val * 1024 + q.val; omega

/-- What point t writes back is block t of the layer of the arrays the pallas_call finds. -/
theorem flushed_eq (c : Dev nD) (t : Fin cfg0.N) :
    (dat0 V c).flushed 4 t = ((cfg0.win 4).blk t).view.read (Elt Ideal)
      (G (V c main_v0) (V c main_arg1) (V c main_v2) (V c main_v1)) := by
  show (cfg0.win 4).cut (grid0.coords t) ((dat0 V c).after 4 t) = _
  rw [after0_4]
  unfold out0_4
  rw [View.canon_unit_zero hz]
  simp only [View.ld_unit_zero (S := S1024x512) hz, View.ld_unit_zero (S := S64x512) hz, View.ld_unit_zero (S := S1x1024) hz]
  funext j
  obtain ⟨p, q, rfl⟩ : ∃ (p : Fin 64) (q : Fin 1024), j = ix2 p q := ⟨j 0, j 1, eq_ix2 j⟩
  show k0_pay1 (iblk0 V c 1 t) (iblk0 V c 2 t) (iblk0 V c 0 t) (iblk0 V c 3 t) (ix2 p q)
    = G (V c main_v0) (V c main_arg1) (V c main_v2) (V c main_v1) (((cfg0.win 4).blk t).view.emb (ix2 p q))
  refine (pay_apply _ _ _ _ p q).trans ?_
  rw [emb_out, G, relu_ix2, lin_ix2]
  refine congrArg (max · 0) ?_
  unfold linAt
  beta_reduce
  rw [read_b]
  refine congrArg (· + _) (Finset.sum_congr rfl fun k _ => ?_)
  rw [read_x, read_w, read_m]

/-- An index of the output array is in point t's block iff each coordinate is in the block's range. -/
theorem mem_blk (t : Fin cfg0.N) (i : S64x2048.Idx) :
    i ∈ ((cfg0.win 4).blk t).view.set ↔ ∀ a : Fin 2, win0_4.index t a * S64x1024.size a ≤ (i a).val
      ∧ (i a).val < win0_4.index t a * S64x1024.size a + S64x1024.size a := by
  show i ∈ ((View.whole main_v3).slice (win0_4.rect t)).set ↔ _
  rw [View.set_slice_whole, Rect.mem_set_unit]
  exact Iff.rfl

/-- Column q of the output lies in the block of point q / 1024: the blocks tile the array. -/
theorem cover (i : S64x2048.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hN : (i 1).val / 1024 < grid0.N := by rw [N_0]; omega
  obtain ⟨-, -, -, -, -, -, -, -, e0, e1⟩ := idx_facts ⟨(i 1).val / 1024, hN⟩
  refine ⟨⟨(i 1).val / 1024, hN⟩, flush0_4 _, ?_⟩
  rw [mem_blk]
  intro a
  match a with
  | ⟨0, _⟩ =>
    show win0_4.index ⟨(i 1).val / 1024, hN⟩ (0 : Fin 2) * 64 ≤ (i 0).val
      ∧ (i 0).val < win0_4.index ⟨(i 1).val / 1024, hN⟩ (0 : Fin 2) * 64 + 64
    omega
  | ⟨1, _⟩ =>
    show win0_4.index ⟨(i 1).val / 1024, hN⟩ (1 : Fin 2) * 1024 ≤ (i 1).val
      ∧ (i 1).val < win0_4.index ⟨(i 1).val / 1024, hN⟩ (1 : Fin 2) * 1024 + 1024
    have e1' : win0_4.index ⟨(i 1).val / 1024, hN⟩ (1 : Fin 2) = (i 1).val / 1024 := e1
    omega

/-- The output array after the pallas_call is the layer of the arrays it found. -/
theorem final (c : Dev nD) :
    (dat0 V c).arrAt 4 cfg0.N = G (V c main_v0) (V c main_arg1) (V c main_v2) (V c main_v1) :=
  (dat0 V c).arrAt_eq_of_cover 4 _ (fun t _ => flushed_eq V c t) cover

end Cert.KernelIdeal.Layer0

end
-- ==== Proof.Layer1.lean ====
/-
  The second pallas_call of the kernel program: one masked linear layer followed by max (., 0), [64, 2048] -> [64, 4096].

  Its grid has 4 points; point t takes rows t * 1024 .. t * 1024 + 1023 of the weights and of the mask, the same
  columns of the one-row bias, and the whole activation matrix, and writes columns t * 1024 .. of the output.  Entry
  (p, q) of the block it writes is max (., 0) of the sum over the contraction axis k of x (p, k) times the weight (q, k) where
  the mask word (q, k) is non-zero (zero elsewhere), plus the bias of the column.  Read through the windows' blocks this is block t of
  ONE function G of the four arrays the pallas_call finds, the blocks tile the output, and so the output array ends
  holding G of those arrays.  Everything is stated at ANY contents V of the buffers at the pallas_call's entry.
-/
import proofs.«161399_j27650999452105_2_alg».proof.Proof.Gen.KernelIdeal.Frame
import proofs.«161399_j27650999452105_2_alg».proof.Proof.Spec
import proofs.«161399_j27650999452105_2_alg».proof.Proof.LibRowDot
import Idealize.ShloMosaic.Lib.Pipeline.Value
import Idealize.ShloMosaic.Lib.ValueLayout

noncomputable section

open scoped BigOperators

namespace Cert.KernelIdeal.Layer1

open Idealize.ShloMosaic Idealize.ShloMosaic.ValueIdx Idealize.ShloMosaic.TcCoe Idealize.SL.Sem
open Cert.KernelIdeal Cert.KernelIdeal.Gen Cert.MaskedMlp

/-- The body's stored value at (p, q), from the blocks it loads whole. -/
theorem pay_apply (v1 : Vec Ideal S1024x2048 .f32) (v2 : Vec Ideal S1024x2048 .i32) (v4 : Vec Ideal S64x2048 .bf16)
    (v11 : Vec Ideal S1x1024 .f32) (p : Fin 64) (q : Fin 1024) :
    k1_pay1 (F := Ideal) v1 v2 v4 v11 (ix2 p q)
      = max (linAt v4 v1 (fun i => IntOp.cmpi .ne (v2 i) 0#32) (fun q => v11 (ix2 0 q)) p q) 0 := by
  unfold k1_pay1
  simp only [truncf_apply, maximumf_apply, addf_apply, broadcast_apply, matmul]
  rw [Cert.RowDot.matmul_zero_apply _ rfl rfl rfl rfl rfl rfl, shapeCast_self, shapeCast_self,
    broadcastTo_1b_ab_apply]
  simp only [truncf_apply, select_apply, cmpi, constantI_apply, broadcast_apply, Ideal.ofBits_def, select_keep,
    Ideal.ofBits_zero_f32, zero_add]
  rfl

theorem hz : (![0, 0] : Fin 2 → Nat) = fun _ => 0 := funext fun a => by fin_cases a <;> rfl

/-- The layer as this pallas_call computes it, of the four arrays it finds: activations, weights, the mask as
    words (non-zero = kept) and the bias as a one-row matrix. -/
def G (x : S64x2048.Idx → EReal) (W : S4096x2048.Idx → EReal) (m32 : S4096x2048.Idx → BitVec 32) (b2 : S1x4096.Idx → EReal) :
    S64x4096.Idx → EReal :=
  relu (lin x W (fun i => IntOp.cmpi .ne (m32 i) 0#32) (fun q => b2 (ix2 0 q)))

/-- The block indices of the five windows at a grid point, decided over the grid. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = t.val
    ∧ win1_4.index t (0 : Fin 2) = 0 ∧ win1_4.index t (1 : Fin 2) = t.val :=
  (by decide +kernel : ∀ t : Fin grid1.N, _)

/-- Row q of block t of the weights is row t * 1024 + q of the array. -/
def row (t : Fin cfg1.N) (q : Fin 1024) : Fin 4096 :=
  ⟨t.val * 1024 + q.val, by have ht : t.val < grid1.N := t.isLt; rw [N_1] at ht; omega⟩

variable (V : (c : Dev nD) → (b : Ref sig .tc) → Buf (Elt Ideal) ((c : Thread nD τ).loc b))

/-- The activations' block is the whole array at every point. -/
theorem read_x (c : Dev nD) (t : Fin cfg1.N) (p : Fin 64) (k : Fin 2048) :
    iblk1 V c 0 t (ix2 p k) = V c main_v3 (ix2 p k) := by
  obtain ⟨e0, e1, -⟩ := idx_facts t
  show V c main_v3 (((cfg1.win 0).blk t).view.emb (ix2 p k)) = V c main_v3 (ix2 p k)
  refine congrArg _ (funext fun a => Fin.ext ?_)
  match a with
  | ⟨0, _⟩ => show win1_0.index t (0 : Fin 2) * 64 + 1 * p.val = p.val; omega
  | ⟨1, _⟩ => show win1_0.index t (1 : Fin 2) * 2048 + 1 * k.val = k.val; omega

/-- Row q of the weights' block t is row t * 1024 + q of the weights. -/
theorem read_w (c : Dev nD) (t : Fin cfg1.N) (q : Fin 1024) (k : Fin 2048) :
    iblk1 V c 1 t (ix2 q k) = V c main_arg2 (ix2 (row t q) k) := by
  obtain ⟨-, -, e0, e1, -⟩ := idx_facts t
  show V c main_arg2 (((cfg1.win 1).blk t).view.emb (ix2 q k)) = V c main_arg2 (ix2 (row t q) k)
  refine congrArg _ (funext fun a => Fin.ext ?_)
  match a with
  | ⟨0, _⟩ => show win1_1.index t (0 : Fin 2) * 1024 + 1 * q.val = t.val * 1024 + q.val; omega
  | ⟨1, _⟩ => show win1_1.index t (1 : Fin 2) * 2048 + 1 * k.val = k.val; omega

/-- The same for the mask. -/
theorem read_m (c : Dev nD) (t : Fin cfg1.N) (q : Fin 1024) (k : Fin 2048) :
    iblk1 V c 2 t (ix2 q k) = V c main_v5 (ix2 (row t q) k) := by
  obtain ⟨-, -, -, -, e0, e1, -⟩ := idx_facts t
  show V c main_v5 (((cfg1.win 2).blk t).view.emb (ix2 q k)) = V c main_v5 (ix2 (row t q) k)
  refine congrArg _ (funext fun a => Fin.ext ?_)
  match a with
  | ⟨0, _⟩ => show win1_2.index t (0 : Fin 2) * 1024 + 1 * q.val = t.val * 1024 + q.val; omega
  | ⟨1, _⟩ => show win1_2.index t (1 : Fin 2) * 2048 + 1 * k.val = k.val; omega

/-- Column q of the bias' block t is column t * 1024 + q of the one-row bias. -/
theorem read_b (c : Dev nD) (t : Fin cfg1.N) (q : Fin 1024) :
    iblk1 V c 3 t (ix2 0 q) = V c main_v4 (ix2 0 (row t q)) := by
  obtain ⟨-, -, -, -, -, -, e0, e1, -⟩ := idx_facts t
  show V c main_v4 (((cfg1.win 3).blk t).view.emb (ix2 0 q)) = V c main_v4 (ix2 0 (row t q))
  refine congrArg _ (funext fun a => Fin.ext ?_)
  match a with
  | ⟨0, _⟩ => show win1_3.index t (0 : Fin 2) * 1 + 1 * 0 = 0; omega
  | ⟨1, _⟩ => show win1_3.index t (1 : Fin 2) * 1024 + 1 * q.val = t.val * 1024 + q.val; omega

/-- Entry (p, q) of the output's block t is entry (p, t * 1024 + q) of the output. -/
theorem emb_out (t : Fin cfg1.N) (p : Fin 64) (q : Fin 1024) :
    ((cfg1.win 4).blk t).view.emb (ix2 p q) = ix2 p (row t q) := by
  obtain ⟨-, -, -, -, -, -, -, -, e0, e1⟩ := idx_facts t
  refine funext fun a => Fin.ext ?_
  match a with
  | ⟨0, _⟩ => show win1_4.index t (0 : Fin 2) * 64 + 1 * p.val = p.val; omega
  | ⟨1, _⟩ => show win1_4.index t (1 : Fin 2) * 1024 + 1 * q.val = t.val * 1024 + q.val; omega

/-- What point t writes back is block t of the layer of the arrays the pallas_call finds. -/
theorem flushed_eq (c : Dev nD) (t : Fin cfg1.N) :
    (dat1 V c).flushed 4 t = ((cfg1.win 4).blk t).view.read (Elt Ideal)
      (G (V c main_v3) (V c main_arg2) (V c main_v5) (V c main_v4)) := by
  show (cfg1.win 4).cut (grid1.coords t) ((dat1 V c).after 4 t) = _
  rw [after1_4]
  unfold out1_4
  rw [View.canon_unit_zero hz]
  simp only [View.ld_unit_zero (S := S1024x2048) hz, View.ld_unit_zero (S := S64x2048) hz, View.ld_unit_zero (S := S1x1024) hz]
  funext j
  obtain ⟨p, q, rfl⟩ : ∃ (p : Fin 64) (q : Fin 1024), j = ix2 p q := ⟨j 0, j 1, eq_ix2 j⟩
  show k1_pay1 (iblk1 V c 1 t) (iblk1 V c 2 t) (iblk1 V c 0 t) (iblk1 V c 3 t) (ix2 p q)
    = G (V c main_v3) (V c main_arg2) (V c main_v5) (V c main_v4) (((cfg1.win 4).blk t).view.emb (ix2 p q))
  refine (pay_apply _ _ _ _ p q).trans ?_
  rw [emb_out, G, relu_ix2, lin_ix2]
  refine congrArg (max · 0) ?_
  unfold linAt
  beta_reduce
  rw [read_b]
  refine congrArg (· + _) (Finset.sum_congr rfl fun k _ => ?_)
  rw [read_x, read_w, read_m]

/-- An index of the output array is in point t's block iff each coordinate is in the block's range. -/
theorem mem_blk (t : Fin cfg1.N) (i : S64x4096.Idx) :
    i ∈ ((cfg1.win 4).blk t).view.set ↔ ∀ a : Fin 2, win1_4.index t a * S64x1024.size a ≤ (i a).val
      ∧ (i a).val < win1_4.index t a * S64x1024.size a + S64x1024.size a := by
  show i ∈ ((View.whole main_v6).slice (win1_4.rect t)).set ↔ _
  rw [View.set_slice_whole, Rect.mem_set_unit]
  exact Iff.rfl

/-- Column q of the output lies in the block of point q / 1024: the blocks tile the array. -/
theorem cover (i : S64x4096.Idx) :
    ∃ t : Fin cfg1.N, (cfg1.win 4).flush t = true ∧ i ∈ ((cfg1.win 4).blk t).view.set := by
  have hi0 : (i 0).val < 64 := (i 0).isLt
  have hi1 : (i 1).val < 4096 := (i 1).isLt
  have hN : (i 1).val / 1024 < grid1.N := by rw [N_1]; omega
  obtain ⟨-, -, -, -, -, -, -, -, e0, e1⟩ := idx_facts ⟨(i 1).val / 1024, hN⟩
  refine ⟨⟨(i 1).val / 1024, hN⟩, flush1_4 _, ?_⟩
  rw [mem_blk]
  intro a
  match a with
  | ⟨0, _⟩ =>
    show win1_4.index ⟨(i 1).val / 1024, hN⟩ (0 : Fin 2) * 64 ≤ (i 0).val
      ∧ (i 0).val < win1_4.index ⟨(i 1).val / 1024, hN⟩ (0 : Fin 2) * 64 + 64
    omega
  | ⟨1, _⟩ =>
    show win1_4.index ⟨(i 1).val / 1024, hN⟩ (1 : Fin 2) * 1024 ≤ (i 1).val
      ∧ (i 1).val < win1_4.index ⟨(i 1).val / 1024, hN⟩ (1 : Fin 2) * 1024 + 1024
    have e1' : win1_4.index ⟨(i 1).val / 1024, hN⟩ (1 : Fin 2) = (i 1).val / 1024 := e1
    omega

/-- The output array after the pallas_call is the layer of the arrays it found. -/
theorem final (c : Dev nD) :
    (dat1 V c).arrAt 4 cfg1.N = G (V c main_v3) (V c main_arg2) (V c main_v5) (V c main_v4) :=
  (dat1 V c).arrAt_eq_of_cover 4 _ (fun t _ => flushed_eq V c t) cover

end Cert.KernelIdeal.Layer1

end
-- ==== Proof.LibLoadCols.lean ====
/-
  A load of a band of columns out of a two-axis buffer, read at an index.

  A kernel body that walks a long axis in tiles loads, from a buffer [R, C], the T columns from column o on
  (a unit-stride rectangle at offsets (0, o) of sizes (R, T)).  Entry (p, k) of what it loads is entry (p, o + k)
  of the buffer.  Stated with the target column given as an element n of Fin C with o + k = n, so that the caller
  chooses the spelling of the column.
-/
import Idealize.ShloMosaic.Lib.Pipeline.FrameBody
import Idealize.ShloMosaic.Lib.ValueIdx

namespace Cert.LoadCols

open Idealize.ShloMosaic Idealize.ShloMosaic.ValueIdx

/-- A load of T columns from column o on, at (p, k), is the buffer at (p, n) where n = o + k. -/
theorem ld_cols {α : EltTy → Type} {e : EltTy} {R C T : ℕ} (X : (⟨2, ![R, C]⟩ : Shape).Idx → α e) (o : ℕ)
    (inb : ∀ a, (![0, o] : Fin 2 → ℕ) a + (⟨2, ![R, T]⟩ : Shape).size a ≤ (⟨2, ![R, C]⟩ : Shape).size a)
    (p : Fin R) (k : Fin T) (n : Fin C) (hn : o + k.val = n.val) :
    View.ld X (Rect.unit (s := ⟨2, ![R, C]⟩) ![0, o] (⟨2, ![R, T]⟩ : Shape).size inb) (ix2 p k) = X (ix2 p n) := by
  show X ((Rect.unit (s := ⟨2, ![R, C]⟩) ![0, o] (⟨2, ![R, T]⟩ : Shape).size inb).idx (ix2 p k)) = X (ix2 p n)
  refine congrArg X (funext fun a => Fin.ext ?_)
  match a with
  | ⟨0, _⟩ => show 0 + 1 * p.val = p.val; omega
  | ⟨1, _⟩ => show o + 1 * k.val = n.val; omega

end Cert.LoadCols
-- ==== Proof.Layer2.lean ====
/-
  The third pallas_call of the kernel program: one masked linear layer followed by max (., 0), [64, 4096] -> [64, 8192].

  Its grid has 16 points; point t takes rows t * 512 .. t * 512 + 511 of the weights and of the mask, the same
  columns of the one-row bias, and the whole activation matrix, and writes columns t * 512 .. of the output.  Entry
  (p, q) of the block it writes is max (., 0) of the sum over the contraction axis k of x (p, k) times the weight (q, k) where
  the mask word (q, k) is non-zero (zero elsewhere), plus the bias of the column; the contraction is taken in
  2 tiles of 2048 positions, which add up to the whole sum.  Read through the windows' blocks this is block t of
  ONE function G of the four arrays the pallas_call finds, the blocks tile the output, and so the output array ends
  holding G of those arrays.  Everything is stated at ANY contents V of the buffers at the pallas_call's entry.
-/
import proofs.«161399_j27650999452105_2_alg».proof.Proof.Gen.KernelIdeal.Frame
import proofs.«161399_j27650999452105_2_alg».proof.Proof.Spec
import proofs.«161399_j27650999452105_2_alg».proof.Proof.LibRowDot
import Idealize.ShloMosaic.Lib.Pipeline.Value
import Idealize.ShloMosaic.Lib.ValueLayout
import proofs.«161399_j27650999452105_2_alg».proof.Proof.LibLoadCols

noncomputable section

open scoped BigOperators

namespace Cert.KernelIdeal.Layer2

open Idealize.ShloMosaic Idealize.ShloMosaic.ValueIdx Idealize.ShloMosaic.TcCoe Idealize.SL.Sem
open Cert.KernelIdeal Cert.KernelIdeal.Gen Cert.MaskedMlp Cert.LoadCols

/-- The body's stored value at (p, q), from the blocks it loads in column bands of 2048. -/
theorem pay_apply (x0 : Vec Ideal S64x4096 .bf16) (x1 : Vec Ideal S512x4096 .f32) (x2 : Vec Ideal S512x4096 .i32)
    (x3 : Vec Ideal S1x512 .f32) (p : Fin 64) (q : Fin 512) :
    k2_pay1 (F := Ideal) (View.ld x1 r2_0) (View.ld x2 r2_0) (View.ld x0 r2_1) (View.ld x1 r2_2) (View.ld x2 r2_2)
        (View.ld x0 r2_3) (View.ld x3 r2_4) (ix2 p q)
      = max (linAt x0 x1 (fun i => IntOp.cmpi .ne (x2 i) 0#32) (fun q => x3 (ix2 0 q)) p q) 0 := by
  unfold k2_pay1
  simp only [truncf_apply, maximumf_apply, addf_apply, broadcast_apply, matmul]
  rw [Cert.RowDot.matmul_zero_apply _ rfl rfl rfl rfl rfl rfl, Cert.RowDot.matmul_zero_apply _ rfl rfl rfl rfl rfl rfl,
    shapeCast_self, shapeCast_self, shapeCast_self, broadcastTo_1b_ab_apply]
  simp only [truncf_apply, select_apply, cmpi, constantI_apply, broadcast_apply, Ideal.ofBits_def, select_keep,
    select_keep0, Ideal.ofBits_zero_f32, zero_add]
  refine congrArg (max · 0) ?_
  rw [ld_cols x3 0 inb_S1x512_S1x512_0_0 0 q q (Nat.zero_add _)]
  refine linAt_chunks2 (T := 2048) rfl x0 x1 (fun i => IntOp.cmpi .ne (x2 i) 0#32) (fun q => x3 (ix2 0 q)) p q _ _ ?_ ?_
  · refine Finset.sum_congr rfl fun j _ => ?_
    rw [ld_cols x0 0 _ p j ⟨j.val, by omega⟩ (Nat.zero_add _), ld_cols x2 0 _ q j ⟨j.val, by omega⟩ (Nat.zero_add _),
      ld_cols x1 0 _ q j ⟨j.val, by omega⟩ (Nat.zero_add _)]
  · refine Finset.sum_congr rfl fun j _ => ?_
    rw [ld_cols x0 2048 _ p j ⟨2048 + j.val, by omega⟩ rfl, ld_cols x2 2048 _ q j ⟨2048 + j.val, by omega⟩ rfl,
      ld_cols x1 2048 _ q j ⟨2048 + j.val, by omega⟩ rfl]

theorem hz : (![0, 0] : Fin 2 → Nat) = fun _ => 0 := funext fun a => by fin_cases a <;> rfl

/-- The layer as this pallas_call computes it, of the four arrays it finds: activations, weights, the mask as
    words (non-zero = kept) and the bias as a one-row matrix. -/
def G (x : S64x4096.Idx → EReal) (W : S8192x4096.Idx → EReal) (m32 : S8192x4096.Idx → BitVec 32) (b2 : S1x8192.Idx → EReal) :
    S64x8192.Idx → EReal :=
  relu (lin x W (fun i => IntOp.cmpi .ne (m32 i) 0#32) (fun q => b2 (ix2 0 q)))

/-- The block indices of the five windows at a grid point, decided over the grid. -/
theorem idx_facts : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = t.val
    ∧ win2_4.index t (0 : Fin 2) = 0 ∧ win2_4.index t (1 : Fin 2) = t.val :=
  (by decide +kernel : ∀ t : Fin grid2.N, _)

/-- Row q of block t of the weights is row t * 512 + q of the array. -/
def row (t : Fin cfg2.N) (q : Fin 512) : Fin 8192 :=
  ⟨t.val * 512 + q.val, by have ht : t.val < grid2.N := t.isLt; rw [N_2] at ht; omega⟩

variable (V : (c : Dev nD) → (b : Ref sig .tc) → Buf (Elt Ideal) ((c : Thread nD τ).loc b))

/-- The activations' block is the whole array at every point. -/
theorem read_x (c : Dev nD) (t : Fin cfg2.N) (p : Fin 64) (k : Fin 4096) :
    iblk2 V c 0 t (ix2 p k) = V c main_v6 (ix2 p k) := by
  obtain ⟨e0, e1, -⟩ := idx_facts t
  show V c main_v6 (((cfg2.win 0).blk t).view.emb (ix2 p k)) = V c main_v6 (ix2 p k)
  refine congrArg _ (funext fun a => Fin.ext ?_)
  match a with
  | ⟨0, _⟩ => show win2_0.index t (0 : Fin 2) * 64 + 1 * p.val = p.val; omega
  | ⟨1, _⟩ => show win2_0.index t (1 : Fin 2) * 4096 + 1 * k.val = k.val; omega

/-- Row q of the weights' block t is row t * 512 + q of the weights. -/
theorem read_w (c : Dev nD) (t : Fin cfg2.N) (q : Fin 512) (k : Fin 4096) :
    iblk2 V c 1 t (ix2 q k) = V c main_arg3 (ix2 (row t q) k) := by
  obtain ⟨-, -, e0, e1, -⟩ := idx_facts t
  show V c main_arg3 (((cfg2.win 1).blk t).view.emb (ix2 q k)) = V c main_arg3 (ix2 (row t q) k)
  refine congrArg _ (funext fun a => Fin.ext ?_)
  match a with
  | ⟨0, _⟩ => show win2_1.index t (0 : Fin 2) * 512 + 1 * q.val = t.val * 512 + q.val; omega
  | ⟨1, _⟩ => show win2_1.index t (1 : Fin 2) * 4096 + 1 * k.val = k.val; omega

/-- The same for the mask. -/
theorem read_m (c : Dev nD) (t : Fin cfg2.N) (q : Fin 512) (k : Fin 4096) :
    iblk2 V c 2 t (ix2 q k) = V c main_v8 (ix2 (row t q) k) := by
  obtain ⟨-, -, -, -, e0, e1, -⟩ := idx_facts t
  show V c main_v8 (((cfg2.win 2).blk t).view.emb (ix2 q k)) = V c main_v8 (ix2 (row t q) k)
  refine congrArg _ (funext fun a => Fin.ext ?_)
  match a with
  | ⟨0, _⟩ => show win2_2.index t (0 : Fin 2) * 512 + 1 * q.val = t.val * 512 + q.val; omega
  | ⟨1, _⟩ => show win2_2.index t (1 : Fin 2) * 4096 + 1 * k.val = k.val; omega

/-- Column q of the bias' block t is column t * 512 + q of the one-row bias. -/
theorem read_b (c : Dev nD) (t : Fin cfg2.N) (q : Fin 512) :
    iblk2 V c 3 t (ix2 0 q) = V c main_v7 (ix2 0 (row t q)) := by
  obtain ⟨-, -, -, -, -, -, e0, e1, -⟩ := idx_facts t
  show V c main_v7 (((cfg2.win 3).blk t).view.emb (ix2 0 q)) = V c main_v7 (ix2 0 (row t q))
  refine congrArg _ (funext fun a => Fin.ext ?_)
  match a with
  | ⟨0, _⟩ => show win2_3.index t (0 : Fin 2) * 1 + 1 * 0 = 0; omega
  | ⟨1, _⟩ => show win2_3.index t (1 : Fin 2) * 512 + 1 * q.val = t.val * 512 + q.val; omega

/-- Entry (p, q) of the output's block t is entry (p, t * 512 + q) of the output. -/
theorem emb_out (t : Fin cfg2.N) (p : Fin 64) (q : Fin 512) :
    ((cfg2.win 4).blk t).view.emb (ix2 p q) = ix2 p (row t q) := by
  obtain ⟨-, -, -, -, -, -, -, -, e0, e1⟩ := idx_facts t
  refine funext fun a => Fin.ext ?_
  match a with
  | ⟨0, _⟩ => show win2_4.index t (0 : Fin 2) * 64 + 1 * p.val = p.val; omega
  | ⟨1, _⟩ => show win2_4.index t (1 : Fin 2) * 512 + 1 * q.val = t.val * 512 + q.val; omega

/-- What point t writes back is block t of the layer of the arrays the pallas_call finds. -/
theorem flushed_eq (c : Dev nD) (t : Fin cfg2.N) :
    (dat2 V c).flushed 4 t = ((cfg2.win 4).blk t).view.read (Elt Ideal)
      (G (V c main_v6) (V c main_arg3) (V c main_v8) (V c main_v7)) := by
  show (cfg2.win 4).cut (grid2.coords t) ((dat2 V c).after 4 t) = _
  rw [after2_4]
  unfold out2_4
  rw [View.canon_unit_zero hz]
  funext j
  obtain ⟨p, q, rfl⟩ : ∃ (p : Fin 64) (q : Fin 512), j = ix2 p q := ⟨j 0, j 1, eq_ix2 j⟩
  show k2_pay1 (View.ld (iblk2 V c 1 t) r2_0) (View.ld (iblk2 V c 2 t) r2_0) (View.ld (iblk2 V c 0 t) r2_1)
      (View.ld (iblk2 V c 1 t) r2_2) (View.ld (iblk2 V c 2 t) r2_2) (View.ld (iblk2 V c 0 t) r2_3) (View.ld (iblk2 V c 3 t) r2_4) (ix2 p q)
    = G (V c main_v6) (V c main_arg3) (V c main_v8) (V c main_v7) (((cfg2.win 4).blk t).view.emb (ix2 p q))
  refine (pay_apply (iblk2 V c 0 t) (iblk2 V c 1 t) (iblk2 V c 2 t) (iblk2 V c 3 t) p q).trans ?_
  rw [emb_out, G, relu_ix2, lin_ix2]
  refine congrArg (max · 0) ?_
  unfold linAt
  beta_reduce
  rw [read_b]
  refine congrArg (· + _) (Finset.sum_congr rfl fun k _ => ?_)
  rw [read_x, read_w, read_m]

/-- An index of the output array is in point t's block iff each coordinate is in the block's range. -/
theorem mem_blk (t : Fin cfg2.N) (i : S64x8192.Idx) :
    i ∈ ((cfg2.win 4).blk t).view.set ↔ ∀ a : Fin 2, win2_4.index t a * S64x512.size a ≤ (i a).val
      ∧ (i a).val < win2_4.index t a * S64x512.size a + S64x512.size a := by
  show i ∈ ((View.whole main_v9).slice (win2_4.rect t)).set ↔ _
  rw [View.set_slice_whole, Rect.mem_set_unit]
  exact Iff.rfl

/-- Column q of the output lies in the block of point q / 512: the blocks tile the array. -/
theorem cover (i : S64x8192.Idx) :
    ∃ t : Fin cfg2.N, (cfg2.win 4).flush t = true ∧ i ∈ ((cfg2.win 4).blk t).view.set := by
  have hi0 : (i 0).val < 64 := (i 0).isLt
  have hi1 : (i 1).val < 8192 := (i 1).isLt
  have hN : (i 1).val / 512 < grid2.N := by rw [N_2]; omega
  obtain ⟨-, -, -, -, -, -, -, -, e0, e1⟩ := idx_facts ⟨(i 1).val / 512, hN⟩
  refine ⟨⟨(i 1).val / 512, hN⟩, flush2_4 _, ?_⟩
  rw [mem_blk]
  intro a
  match a with
  | ⟨0, _⟩ =>
    show win2_4.index ⟨(i 1).val / 512, hN⟩ (0 : Fin 2) * 64 ≤ (i 0).val
      ∧ (i 0).val < win2_4.index ⟨(i 1).val / 512, hN⟩ (0 : Fin 2) * 64 + 64
    omega
  | ⟨1, _⟩ =>
    show win2_4.index ⟨(i 1).val / 512, hN⟩ (1 : Fin 2) * 512 ≤ (i 1).val
      ∧ (i 1).val < win2_4.index ⟨(i 1).val / 512, hN⟩ (1 : Fin 2) * 512 + 512
    have e1' : win2_4.index ⟨(i 1).val / 512, hN⟩ (1 : Fin 2) = (i 1).val / 512 := e1
    omega

/-- The output array after the pallas_call is the layer of the arrays it found. -/
theorem final (c : Dev nD) :
    (dat2 V c).arrAt 4 cfg2.N = G (V c main_v6) (V c main_arg3) (V c main_v8) (V c main_v7) :=
  (dat2 V c).arrAt_eq_of_cover 4 _ (fun t _ => flushed_eq V c t) cover

end Cert.KernelIdeal.Layer2

end
-- ==== Proof.Layer3.lean ====
/-
  The fourth pallas_call of the kernel program: one masked linear layer, [64, 8192] -> [64, 16384].

  Its grid has 64 points; point t takes rows t * 256 .. t * 256 + 255 of the weights and of the mask, the same
  columns of the one-row bias, and the whole activation matrix, and writes columns t * 256 .. of the output.  Entry
  (p, q) of the block it writes is the sum over the contraction axis k of x (p, k) times the weight (q, k) where
  the mask word (q, k) is non-zero (zero elsewhere), plus the bias of the column; the contraction is taken in
  4 tiles of 2048 positions, which add up to the whole sum.  Read through the windows' blocks this is block t of
  ONE function G of the four arrays the pallas_call finds, the blocks tile the output, and so the output array ends
  holding G of those arrays.  Everything is stated at ANY contents V of the buffers at the pallas_call's entry.
-/
import proofs.«161399_j27650999452105_2_alg».proof.Proof.Gen.KernelIdeal.Frame
import proofs.«161399_j27650999452105_2_alg».proof.Proof.Spec
import proofs.«161399_j27650999452105_2_alg».proof.Proof.LibRowDot
import Idealize.ShloMosaic.Lib.Pipeline.Value
import Idealize.ShloMosaic.Lib.ValueLayout
import proofs.«161399_j27650999452105_2_alg».proof.Proof.LibLoadCols

noncomputable section

open scoped BigOperators

namespace Cert.KernelIdeal.Layer3

open Idealize.ShloMosaic Idealize.ShloMosaic.ValueIdx Idealize.ShloMosaic.TcCoe Idealize.SL.Sem
open Cert.KernelIdeal Cert.KernelIdeal.Gen Cert.MaskedMlp Cert.LoadCols

/-- The body's stored value at (p, q), from the blocks it loads in column bands of 2048. -/
theorem pay_apply (x0 : Vec Ideal S64x8192 .bf16) (x1 : Vec Ideal S256x8192 .f32) (x2 : Vec Ideal S256x8192 .i32)
    (x3 : Vec Ideal S1x256 .f32) (p : Fin 64) (q : Fin 256) :
    k3_pay1 (F := Ideal) (k3_pay2 (View.ld x1 r3_0) (View.ld x2 r3_0) (View.ld x0 r3_1) (View.ld x1 r3_2) (View.ld x2 r3_2)
        (View.ld x0 r3_3) (View.ld x1 r3_4) (View.ld x2 r3_4) (View.ld x0 r3_5)) (View.ld x1 r3_6) (View.ld x2 r3_6)
        (View.ld x0 r3_7) (View.ld x3 r3_8) (ix2 p q)
      = linAt x0 x1 (fun i => IntOp.cmpi .ne (x2 i) 0#32) (fun q => x3 (ix2 0 q)) p q := by
  unfold k3_pay1 k3_pay2
  simp only [truncf_apply, addf_apply, broadcast_apply, matmul]
  rw [Cert.RowDot.matmul_zero_apply _ rfl rfl rfl rfl rfl rfl, Cert.RowDot.matmul_zero_apply _ rfl rfl rfl rfl rfl rfl,
    Cert.RowDot.matmul_zero_apply _ rfl rfl rfl rfl rfl rfl, Cert.RowDot.matmul_zero_apply _ rfl rfl rfl rfl rfl rfl,
    shapeCast_self, shapeCast_self, shapeCast_self, shapeCast_self, shapeCast_self, broadcastTo_1b_ab_apply]
  simp only [truncf_apply, select_apply, cmpi, constantI_apply, broadcast_apply, Ideal.ofBits_def, select_keep,
    select_keep0, Ideal.ofBits_zero_f32, zero_add]
  rw [ld_cols x3 0 inb_S1x256_S1x256_0_0 0 q q (Nat.zero_add _)]
  refine linAt_chunks4 (T := 2048) rfl x0 x1 (fun i => IntOp.cmpi .ne (x2 i) 0#32) (fun q => x3 (ix2 0 q)) p q _ _ _ _ ?_ ?_ ?_ ?_
  · refine Finset.sum_congr rfl fun j _ => ?_
    rw [ld_cols x0 0 _ p j ⟨j.val, by omega⟩ (Nat.zero_add _), ld_cols x2 0 _ q j ⟨j.val, by omega⟩ (Nat.zero_add _),
      ld_cols x1 0 _ q j ⟨j.val, by omega⟩ (Nat.zero_add _)]
  · refine Finset.sum_congr rfl fun j _ => ?_
    rw [ld_cols x0 2048 _ p j ⟨2048 + j.val, by omega⟩ rfl, ld_cols x2 2048 _ q j ⟨2048 + j.val, by omega⟩ rfl,
      ld_cols x1 2048 _ q j ⟨2048 + j.val, by omega⟩ rfl]
  · refine Finset.sum_congr rfl fun j _ => ?_
    rw [ld_cols x0 4096 _ p j ⟨2048 + 2048 + j.val, by omega⟩ rfl, ld_cols x2 4096 _ q j ⟨2048 + 2048 + j.val, by omega⟩ rfl,
      ld_cols x1 4096 _ q j ⟨2048 + 2048 + j.val, by omega⟩ rfl]
  · refine Finset.sum_congr rfl fun j _ => ?_
    rw [ld_cols x0 6144 _ p j ⟨2048 + 2048 + 2048 + j.val, by omega⟩ rfl, ld_cols x2 6144 _ q j ⟨2048 + 2048 + 2048 + j.val, by omega⟩ rfl,
      ld_cols x1 6144 _ q j ⟨2048 + 2048 + 2048 + j.val, by omega⟩ rfl]

theorem hz : (![0, 0] : Fin 2 → Nat) = fun _ => 0 := funext fun a => by fin_cases a <;> rfl

/-- The layer as this pallas_call computes it, of the four arrays it finds: activations, weights, the mask as
    words (non-zero = kept) and the bias as a one-row matrix. -/
def G (x : S64x8192.Idx → EReal) (W : S16384x8192.Idx → EReal) (m32 : S16384x8192.Idx → BitVec 32) (b2 : S1x16384.Idx → EReal) :
    S64x16384.Idx → EReal :=
  (lin x W (fun i => IntOp.cmpi .ne (m32 i) 0#32) (fun q => b2 (ix2 0 q)))

/-- The block indices of the five windows at a grid point, decided over the grid. -/
theorem idx_facts : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = t.val
    ∧ win3_4.index t (0 : Fin 2) = 0 ∧ win3_4.index t (1 : Fin 2) = t.val :=
  (by decide +kernel : ∀ t : Fin grid3.N, _)

/-- Row q of block t of the weights is row t * 256 + q of the array. -/
def row (t : Fin cfg3.N) (q : Fin 256) : Fin 16384 :=
  ⟨t.val * 256 + q.val, by have ht : t.val < grid3.N := t.isLt; rw [N_3] at ht; omega⟩

variable (V : (c : Dev nD) → (b : Ref sig .tc) → Buf (Elt Ideal) ((c : Thread nD τ).loc b))

/-- The activations' block is the whole array at every point. -/
theorem read_x (c : Dev nD) (t : Fin cfg3.N) (p : Fin 64) (k : Fin 8192) :
    iblk3 V c 0 t (ix2 p k) = V c main_v9 (ix2 p k) := by
  obtain ⟨e0, e1, -⟩ := idx_facts t
  show V c main_v9 (((cfg3.win 0).blk t).view.emb (ix2 p k)) = V c main_v9 (ix2 p k)
  refine congrArg _ (funext fun a => Fin.ext ?_)
  match a with
  | ⟨0, _⟩ => show win3_0.index t (0 : Fin 2) * 64 + 1 * p.val = p.val; omega
  | ⟨1, _⟩ => show win3_0.index t (1 : Fin 2) * 8192 + 1 * k.val = k.val; omega

/-- Row q of the weights' block t is row t * 256 + q of the weights. -/
theorem read_w (c : Dev nD) (t : Fin cfg3.N) (q : Fin 256) (k : Fin 8192) :
    iblk3 V c 1 t (ix2 q k) = V c main_arg4 (ix2 (row t q) k) := by
  obtain ⟨-, -, e0, e1, -⟩ := idx_facts t
  show V c main_arg4 (((cfg3.win 1).blk t).view.emb (ix2 q k)) = V c main_arg4 (ix2 (row t q) k)
  refine congrArg _ (funext fun a => Fin.ext ?_)
  match a with
  | ⟨0, _⟩ => show win3_1.index t (0 : Fin 2) * 256 + 1 * q.val = t.val * 256 + q.val; omega
  | ⟨1, _⟩ => show win3_1.index t (1 : Fin 2) * 8192 + 1 * k.val = k.val; omega

/-- The same for the mask. -/
theorem read_m (c : Dev nD) (t : Fin cfg3.N) (q : Fin 256) (k : Fin 8192) :
    iblk3 V c 2 t (ix2 q k) = V c main_v11 (ix2 (row t q) k) := by
  obtain ⟨-, -, -, -, e0, e1, -⟩ := idx_facts t
  show V c main_v11 (((cfg3.win 2).blk t).view.emb (ix2 q k)) = V c main_v11 (ix2 (row t q) k)
  refine congrArg _ (funext fun a => Fin.ext ?_)
  match a with
  | ⟨0, _⟩ => show win3_2.index t (0 : Fin 2) * 256 + 1 * q.val = t.val * 256 + q.val; omega
  | ⟨1, _⟩ => show win3_2.index t (1 : Fin 2) * 8192 + 1 * k.val = k.val; omega

/-- Column q of the bias' block t is column t * 256 + q of the one-row bias. -/
theorem read_b (c : Dev nD) (t : Fin cfg3.N) (q : Fin 256) :
    iblk3 V c 3 t (ix2 0 q) = V c main_v10 (ix2 0 (row t q)) := by
  obtain ⟨-, -, -, -, -, -, e0, e1, -⟩ := idx_facts t
  show V c main_v10 (((cfg3.win 3).blk t).view.emb (ix2 0 q)) = V c main_v10 (ix2 0 (row t q))
  refine congrArg _ (funext fun a => Fin.ext ?_)
  match a with
  | ⟨0, _⟩ => show win3_3.index t (0 : Fin 2) * 1 + 1 * 0 = 0; omega
  | ⟨1, _⟩ => show win3_3.index t (1 : Fin 2) * 256 + 1 * q.val = t.val * 256 + q.val; omega

/-- Entry (p, q) of the output's block t is entry (p, t * 256 + q) of the output. -/
theorem emb_out (t : Fin cfg3.N) (p : Fin 64) (q : Fin 256) :
    ((cfg3.win 4).blk t).view.emb (ix2 p q) = ix2 p (row t q) := by
  obtain ⟨-, -, -, -, -, -, -, -, e0, e1⟩ := idx_facts t
  refine funext fun a => Fin.ext ?_
  match a with
  | ⟨0, _⟩ => show win3_4.index t (0 : Fin 2) * 64 + 1 * p.val = p.val; omega
  | ⟨1, _⟩ => show win3_4.index t (1 : Fin 2) * 256 + 1 * q.val = t.val * 256 + q.val; omega

/-- What point t writes back is block t of the layer of the arrays the pallas_call finds. -/
theorem flushed_eq (c : Dev nD) (t : Fin cfg3.N) :
    (dat3 V c).flushed 4 t = ((cfg3.win 4).blk t).view.read (Elt Ideal)
      (G (V c main_v9) (V c main_arg4) (V c main_v11) (V c main_v10)) := by
  show (cfg3.win 4).cut (grid3.coords t) ((dat3 V c).after 4 t) = _
  rw [after3_4]
  unfold out3_4
  rw [View.canon_unit_zero hz]
  funext j
  obtain ⟨p, q, rfl⟩ : ∃ (p : Fin 64) (q : Fin 256), j = ix2 p q := ⟨j 0, j 1, eq_ix2 j⟩
  show k3_pay1 (k3_pay2 (View.ld (iblk3 V c 1 t) r3_0) (View.ld (iblk3 V c 2 t) r3_0) (View.ld (iblk3 V c 0 t) r3_1)
      (View.ld (iblk3 V c 1 t) r3_2) (View.ld (iblk3 V c 2 t) r3_2) (View.ld (iblk3 V c 0 t) r3_3)
      (View.ld (iblk3 V c 1 t) r3_4) (View.ld (iblk3 V c 2 t) r3_4) (View.ld (iblk3 V c 0 t) r3_5))
      (View.ld (iblk3 V c 1 t) r3_6) (View.ld (iblk3 V c 2 t) r3_6) (View.ld (iblk3 V c 0 t) r3_7) (View.ld (iblk3 V c 3 t) r3_8) (ix2 p q)
    = G (V c main_v9) (V c main_arg4) (V c main_v11) (V c main_v10) (((cfg3.win 4).blk t).view.emb (ix2 p q))
  refine (pay_apply (iblk3 V c 0 t) (iblk3 V c 1 t) (iblk3 V c 2 t) (iblk3 V c 3 t) p q).trans ?_
  rw [emb_out, G, lin_ix2]
  unfold linAt
  beta_reduce
  rw [read_b]
  refine congrArg (· + _) (Finset.sum_congr rfl fun k _ => ?_)
  rw [read_x, read_w, read_m]

/-- An index of the output array is in point t's block iff each coordinate is in the block's range. -/
theorem mem_blk (t : Fin cfg3.N) (i : S64x16384.Idx) :
    i ∈ ((cfg3.win 4).blk t).view.set ↔ ∀ a : Fin 2, win3_4.index t a * S64x256.size a ≤ (i a).val
      ∧ (i a).val < win3_4.index t a * S64x256.size a + S64x256.size a := by
  show i ∈ ((View.whole main_v12).slice (win3_4.rect t)).set ↔ _
  rw [View.set_slice_whole, Rect.mem_set_unit]
  exact Iff.rfl

/-- Column q of the output lies in the block of point q / 256: the blocks tile the array. -/
theorem cover (i : S64x16384.Idx) :
    ∃ t : Fin cfg3.N, (cfg3.win 4).flush t = true ∧ i ∈ ((cfg3.win 4).blk t).view.set := by
  have hi0 : (i 0).val < 64 := (i 0).isLt
  have hi1 : (i 1).val < 16384 := (i 1).isLt
  have hN : (i 1).val / 256 < grid3.N := by rw [N_3]; omega
  obtain ⟨-, -, -, -, -, -, -, -, e0, e1⟩ := idx_facts ⟨(i 1).val / 256, hN⟩
  refine ⟨⟨(i 1).val / 256, hN⟩, flush3_4 _, ?_⟩
  rw [mem_blk]
  intro a
  match a with
  | ⟨0, _⟩ =>
    show win3_4.index ⟨(i 1).val / 256, hN⟩ (0 : Fin 2) * 64 ≤ (i 0).val
      ∧ (i 0).val < win3_4.index ⟨(i 1).val / 256, hN⟩ (0 : Fin 2) * 64 + 64
    omega
  | ⟨1, _⟩ =>
    show win3_4.index ⟨(i 1).val / 256, hN⟩ (1 : Fin 2) * 256 ≤ (i 1).val
      ∧ (i 1).val < win3_4.index ⟨(i 1).val / 256, hN⟩ (1 : Fin 2) * 256 + 256
    have e1' : win3_4.index ⟨(i 1).val / 256, hN⟩ (1 : Fin 2) = (i 1).val / 256 := e1
    omega

/-- The output array after the pallas_call is the layer of the arrays it found. -/
theorem final (c : Dev nD) :
    (dat3 V c).arrAt 4 cfg3.N = G (V c main_v9) (V c main_arg4) (V c main_v11) (V c main_v10) :=
  (dat3 V c).arrAt_eq_of_cover 4 _ (fun t _ => flushed_eq V c t) cover

end Cert.KernelIdeal.Layer3

end
-- ==== Proof.Net.lean ====
/-
  The whole network: four masked linear layers, max (., 0) after each of the first three.

      net x W0..W3 b0..b3 m0..m3 = lin (relu (lin (relu (lin (relu (lin x W0 m0 b0)) W1 m1 b1)) W2 m2 b2)) W3 m3 b3

  over the literal shapes of the two programs: activations [64, 512], weights [2048, 512], [4096, 2048], [8192, 4096],
  [16384, 8192], masks of the weights' shapes, biases [2048], [4096], [8192], [16384], result [64, 16384].
-/
import proofs.«161399_j27650999452105_2_alg».proof.Proof.Spec

noncomputable section

namespace Cert.MaskedMlp

open Idealize.ShloMosaic Idealize.ShloMosaic.ValueIdx

/-- The four-layer masked network of the thirteen arguments, in the programs' argument order. -/
def net (x : (⟨2, ![64, 512]⟩ : Shape).Idx → EReal)
    (W0 : (⟨2, ![2048, 512]⟩ : Shape).Idx → EReal) (W1 : (⟨2, ![4096, 2048]⟩ : Shape).Idx → EReal)
    (W2 : (⟨2, ![8192, 4096]⟩ : Shape).Idx → EReal) (W3 : (⟨2, ![16384, 8192]⟩ : Shape).Idx → EReal)
    (b0 : (⟨1, ![2048]⟩ : Shape).Idx → EReal) (b1 : (⟨1, ![4096]⟩ : Shape).Idx → EReal)
    (b2 : (⟨1, ![8192]⟩ : Shape).Idx → EReal) (b3 : (⟨1, ![16384]⟩ : Shape).Idx → EReal)
    (m0 : (⟨2, ![2048, 512]⟩ : Shape).Idx → BitVec 1) (m1 : (⟨2, ![4096, 2048]⟩ : Shape).Idx → BitVec 1)
    (m2 : (⟨2, ![8192, 4096]⟩ : Shape).Idx → BitVec 1) (m3 : (⟨2, ![16384, 8192]⟩ : Shape).Idx → BitVec 1) :
    (⟨2, ![64, 16384]⟩ : Shape).Idx → EReal :=
  lin (relu (lin (relu (lin (relu (lin x W0 m0 fun q => b0 (ix1 q))) W1 m1 fun q => b1 (ix1 q))) W2 m2 fun q => b2 (ix1 q)))
    W3 m3 fun q => b3 (ix1 q)

end Cert.MaskedMlp

end
-- ==== Proof.Chain.lean ====
/-
  The kernel program's result, through its four pallas_calls.

  Between the pallas_calls the host only reshapes the next bias to one row and widens the next mask to words; the
  first stretch also passes the activations through a change of float format, the identity on the extended reals.  So
  the arrays each pallas_call finds are: the previous pallas_call's output (the arguments' activations for the
  first), and an argument's weights, widened mask and one-row bias — an argument buffer nothing has written holds its
  launch contents at every boundary.  Each pallas_call leaves its layer of those arrays; a widened mask word is
  non-zero exactly where the bit is set and the one-row bias at (0, q) is the bias at q, so the four layers compose
  to the network of the thirteen arguments.
-/
import proofs.«161399_j27650999452105_2_alg».proof.Proof.Gen.KernelIdeal.Frame
import proofs.«161399_j27650999452105_2_alg».proof.Proof.Layer0
import proofs.«161399_j27650999452105_2_alg».proof.Proof.Layer1
import proofs.«161399_j27650999452105_2_alg».proof.Proof.Layer2
import proofs.«161399_j27650999452105_2_alg».proof.Proof.Layer3
import proofs.«161399_j27650999452105_2_alg».proof.Proof.Net
import Idealize.ShloMosaic.Lib.StableHlo.Run
import Idealize.ShloMosaic.Lib.ValueLayout

noncomputable section
namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.MaskedMlp

variable (m : (ℓ : Loc nD τ sig) → Buf (Elt Ideal) ℓ) (ρ : Dev nD → PrngReg)

/-! ## A buffer a stretch of host operations does not write keeps its contents -/

theorem host0_keep (W : Valuation τ sig (Elt Ideal)) (b : Ref sig .tc) (h0 : b ≠ main_v0) (h1 : b ≠ main_v1) (h2 : b ≠ main_v2) :
    StableHlo.after hostOps0 W (Proc.devRef .tc b) = W (Proc.devRef .tc b) :=
  StableHlo.after_of_forall_not_mem _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

theorem host1_keep (W : Valuation τ sig (Elt Ideal)) (b : Ref sig .tc) (h4 : b ≠ main_v4) (h5 : b ≠ main_v5) :
    StableHlo.after hostOps1 W (Proc.devRef .tc b) = W (Proc.devRef .tc b) :=
  StableHlo.after_of_forall_not_mem _ _ (List.forall_iff_forall_mem.mp (by
    simp only [hostOps1, List.Forall, StableHlo.unary_writes, StableHlo.reshape_writes, Finset.mem_singleton]
    exact ⟨StableHlo.devRef_ne_of_ne h4, StableHlo.devRef_ne_of_ne h5⟩))

theorem host2_keep (W : Valuation τ sig (Elt Ideal)) (b : Ref sig .tc) (h7 : b ≠ main_v7) (h8 : b ≠ main_v8) :
    StableHlo.after hostOps2 W (Proc.devRef .tc b) = W (Proc.devRef .tc b) :=
  StableHlo.after_of_forall_not_mem _ _ (List.forall_iff_forall_mem.mp (by
    simp only [hostOps2, List.Forall, StableHlo.unary_writes, StableHlo.reshape_writes, Finset.mem_singleton]
    exact ⟨StableHlo.devRef_ne_of_ne h7, StableHlo.devRef_ne_of_ne h8⟩))

theorem host3_keep (W : Valuation τ sig (Elt Ideal)) (b : Ref sig .tc) (h10 : b ≠ main_v10) (h11 : b ≠ main_v11) :
    StableHlo.after hostOps3 W (Proc.devRef .tc b) = W (Proc.devRef .tc b) :=
  StableHlo.after_of_forall_not_mem _ _ (List.forall_iff_forall_mem.mp (by
    simp only [hostOps3, List.Forall, StableHlo.unary_writes, StableHlo.reshape_writes, Finset.mem_singleton]
    exact ⟨StableHlo.devRef_ne_of_ne h10, StableHlo.devRef_ne_of_ne h11⟩))

/-! ## A buffer nothing has written yet holds its launch contents at each boundary -/

theorem W2_keep (c : Dev nD) (b : Ref sig .tc) (hb0 : ∀ w, Pipeline.arrRef spec0 w ≠ b)
    (h0 : b ≠ main_v0) (h1 : b ≠ main_v1) (h2 : b ≠ main_v2) :
    W2 m ρ c (Proc.devRef .tc b) = m ((c : Thread nD τ).loc b) :=
  (W2_of_ne m ρ c b hb0).trans ((host0_keep (W0 m ρ c) b h0 h1 h2).trans rfl)

theorem W4_keep (c : Dev nD) (b : Ref sig .tc) (hb1 : ∀ w, Pipeline.arrRef spec1 w ≠ b) (h4 : b ≠ main_v4) (h5 : b ≠ main_v5)
    (hb0 : ∀ w, Pipeline.arrRef spec0 w ≠ b) (h0 : b ≠ main_v0) (h1 : b ≠ main_v1) (h2 : b ≠ main_v2) :
    W4 m ρ c (Proc.devRef .tc b) = m ((c : Thread nD τ).loc b) :=
  (W4_of_ne m ρ c b hb1).trans ((host1_keep (W2 m ρ c) b h4 h5).trans (W2_keep m ρ c b hb0 h0 h1 h2))

theorem W6_keep (c : Dev nD) (b : Ref sig .tc) (hb2 : ∀ w, Pipeline.arrRef spec2 w ≠ b) (h7 : b ≠ main_v7) (h8 : b ≠ main_v8)
    (hb1 : ∀ w, Pipeline.arrRef spec1 w ≠ b) (h4 : b ≠ main_v4) (h5 : b ≠ main_v5)
    (hb0 : ∀ w, Pipeline.arrRef spec0 w ≠ b) (h0 : b ≠ main_v0) (h1 : b ≠ main_v1) (h2 : b ≠ main_v2) :
    W6 m ρ c (Proc.devRef .tc b) = m ((c : Thread nD τ).loc b) :=
  (W6_of_ne m ρ c b hb2).trans ((host2_keep (W4 m ρ c) b h7 h8).trans (W4_keep m ρ c b hb1 h4 h5 hb0 h0 h1 h2))

/-! ## The four arrays each pallas_call finds -/

theorem V1_x (c : Dev nD) : (V1 m ρ c main_v0 : S64x512.Idx → EReal) = m ((c : Thread nD τ).loc main_arg0) := by
  show StableHlo.after hostOps0 (W0 m ρ c) (Proc.devRef .tc main_v0) = _
  after_results <;> rfl

theorem V1_w (c : Dev nD) : V1 m ρ c main_arg1 = m ((c : Thread nD τ).loc main_arg1) := by
  show StableHlo.after hostOps0 (W0 m ρ c) (Proc.devRef .tc main_arg1) = _
  after_results <;> rfl

theorem V1_m (c : Dev nD) : V1 m ρ c main_v2 = extui 32 (m ((c : Thread nD τ).loc main_arg9)) natLt_1_32 := by
  show StableHlo.after hostOps0 (W0 m ρ c) (Proc.devRef .tc main_v2) = _
  after_results <;> rfl

theorem V1_b (c : Dev nD) :
    V1 m ρ c main_v1 = shapeCast S1x2048 (m ((c : Thread nD τ).loc main_arg5)) shapeCasts_S2048_S1x2048 := by
  show StableHlo.after hostOps0 (W0 m ρ c) (Proc.devRef .tc main_v1) = _
  after_results <;> rfl

theorem V3_x (c : Dev nD) : V3 m ρ c main_v3 = (dat0 (V1 m ρ) c).arrAt 4 cfg0.N := by
  show StableHlo.after hostOps1 (W2 m ρ c) (Proc.devRef .tc main_v3) = _
  rw [host1_keep _ main_v3 (by decide) (by decide)]
  exact W2_arr m ρ c 4

theorem V3_w (c : Dev nD) : V3 m ρ c main_arg2 = m ((c : Thread nD τ).loc main_arg2) := by
  show StableHlo.after hostOps1 (W2 m ρ c) (Proc.devRef .tc main_arg2) = _
  rw [host1_keep _ main_arg2 (by decide) (by decide)]
  exact W2_keep m ρ c main_arg2 (by decide) (by decide) (by decide) (by decide)

theorem V3_m (c : Dev nD) : V3 m ρ c main_v5 = extui 32 (m ((c : Thread nD τ).loc main_arg10)) natLt_1_32 := by
  show StableHlo.after hostOps1 (W2 m ρ c) (Proc.devRef .tc main_v5) = _
  after_results
  rw [W2_keep m ρ c main_arg10 (by decide) (by decide) (by decide) (by decide)] <;> rfl

theorem V3_b (c : Dev nD) :
    V3 m ρ c main_v4 = shapeCast S1x4096 (m ((c : Thread nD τ).loc main_arg6)) shapeCasts_S4096_S1x4096 := by
  show StableHlo.after hostOps1 (W2 m ρ c) (Proc.devRef .tc main_v4) = _
  after_results
  rw [W2_keep m ρ c main_arg6 (by decide) (by decide) (by decide) (by decide)] <;> rfl

theorem V5_x (c : Dev nD) : V5 m ρ c main_v6 = (dat1 (V3 m ρ) c).arrAt 4 cfg1.N := by
  show StableHlo.after hostOps2 (W4 m ρ c) (Proc.devRef .tc main_v6) = _
  rw [host2_keep _ main_v6 (by decide) (by decide)]
  exact W4_arr m ρ c 4

theorem V5_w (c : Dev nD) : V5 m ρ c main_arg3 = m ((c : Thread nD τ).loc main_arg3) := by
  show StableHlo.after hostOps2 (W4 m ρ c) (Proc.devRef .tc main_arg3) = _
  rw [host2_keep _ main_arg3 (by decide) (by decide)]
  exact W4_keep m ρ c main_arg3 (by decide) (by decide) (by decide) (by decide) (by decide) (by decide) (by decide)

theorem V5_m (c : Dev nD) : V5 m ρ c main_v8 = extui 32 (m ((c : Thread nD τ).loc main_arg11)) natLt_1_32 := by
  show StableHlo.after hostOps2 (W4 m ρ c) (Proc.devRef .tc main_v8) = _
  after_results
  rw [W4_keep m ρ c main_arg11 (by decide) (by decide) (by decide) (by decide) (by decide) (by decide) (by decide)] <;> rfl

theorem V5_b (c : Dev nD) :
    V5 m ρ c main_v7 = shapeCast S1x8192 (m ((c : Thread nD τ).loc main_arg7)) shapeCasts_S8192_S1x8192 := by
  show StableHlo.after hostOps2 (W4 m ρ c) (Proc.devRef .tc main_v7) = _
  after_results
  rw [W4_keep m ρ c main_arg7 (by decide) (by decide) (by decide) (by decide) (by decide) (by decide) (by decide)] <;> rfl

theorem V7_x (c : Dev nD) : V7 m ρ c main_v9 = (dat2 (V5 m ρ) c).arrAt 4 cfg2.N := by
  show StableHlo.after hostOps3 (W6 m ρ c) (Proc.devRef .tc main_v9) = _
  rw [host3_keep _ main_v9 (by decide) (by decide)]
  exact W6_arr m ρ c 4

theorem V7_w (c : Dev nD) : V7 m ρ c main_arg4 = m ((c : Thread nD τ).loc main_arg4) := by
  show StableHlo.after hostOps3 (W6 m ρ c) (Proc.devRef .tc main_arg4) = _
  rw [host3_keep _ main_arg4 (by decide) (by decide)]
  exact W6_keep m ρ c main_arg4 (by decide) (by decide) (by decide) (by decide) (by decide) (by decide) (by decide) (by decide)
    (by decide) (by decide)

theorem V7_m (c : Dev nD) : V7 m ρ c main_v11 = extui 32 (m ((c : Thread nD τ).loc main_arg12)) natLt_1_32 := by
  show StableHlo.after hostOps3 (W6 m ρ c) (Proc.devRef .tc main_v11) = _
  after_results
  rw [W6_keep m ρ c main_arg12 (by decide) (by decide) (by decide) (by decide) (by decide) (by decide) (by decide) (by decide)
    (by decide) (by decide)] <;> rfl

theorem V7_b (c : Dev nD) :
    V7 m ρ c main_v10 = shapeCast S1x16384 (m ((c : Thread nD τ).loc main_arg8)) shapeCasts_S16384_S1x16384 := by
  show StableHlo.after hostOps3 (W6 m ρ c) (Proc.devRef .tc main_v10) = _
  after_results
  rw [W6_keep m ρ c main_arg8 (by decide) (by decide) (by decide) (by decide) (by decide) (by decide) (by decide) (by decide)
    (by decide) (by decide)] <;> rfl

/-! ## Each pallas_call's function of its arrays is the layer of the arguments -/

theorem G0_spec (x : S64x512.Idx → EReal) (W : S2048x512.Idx → EReal) (mk : S2048x512.Idx → BitVec 1) (b : S2048.Idx → EReal) :
    Layer0.G x W (extui 32 mk natLt_1_32) (shapeCast S1x2048 b shapeCasts_S2048_S1x2048)
      = relu (lin x W mk (fun q => b (ix1 q))) := by
  unfold Layer0.G
  rw [show (fun i => IntOp.cmpi .ne (extui 32 mk natLt_1_32 i) 0#32) = mk from funext fun i => ne_zero_setWidth (mk i),
    show (fun q : Fin 2048 => shapeCast S1x2048 b shapeCasts_S2048_S1x2048 (ix2 0 q)) = fun q => b (ix1 q)
      from funext fun q => shapeCast_a_1a_apply b _ 0 q]

theorem G1_spec (x : S64x2048.Idx → EReal) (W : S4096x2048.Idx → EReal) (mk : S4096x2048.Idx → BitVec 1) (b : S4096.Idx → EReal) :
    Layer1.G x W (extui 32 mk natLt_1_32) (shapeCast S1x4096 b shapeCasts_S4096_S1x4096)
      = relu (lin x W mk (fun q => b (ix1 q))) := by
  unfold Layer1.G
  rw [show (fun i => IntOp.cmpi .ne (extui 32 mk natLt_1_32 i) 0#32) = mk from funext fun i => ne_zero_setWidth (mk i),
    show (fun q : Fin 4096 => shapeCast S1x4096 b shapeCasts_S4096_S1x4096 (ix2 0 q)) = fun q => b (ix1 q)
      from funext fun q => shapeCast_a_1a_apply b _ 0 q]

theorem G2_spec (x : S64x4096.Idx → EReal) (W : S8192x4096.Idx → EReal) (mk : S8192x4096.Idx → BitVec 1) (b : S8192.Idx → EReal) :
    Layer2.G x W (extui 32 mk natLt_1_32) (shapeCast S1x8192 b shapeCasts_S8192_S1x8192)
      = relu (lin x W mk (fun q => b (ix1 q))) := by
  unfold Layer2.G
  rw [show (fun i => IntOp.cmpi .ne (extui 32 mk natLt_1_32 i) 0#32) = mk from funext fun i => ne_zero_setWidth (mk i),
    show (fun q : Fin 8192 => shapeCast S1x8192 b shapeCasts_S8192_S1x8192 (ix2 0 q)) = fun q => b (ix1 q)
      from funext fun q => shapeCast_a_1a_apply b _ 0 q]

theorem G3_spec (x : S64x8192.Idx → EReal) (W : S16384x8192.Idx → EReal) (mk : S16384x8192.Idx → BitVec 1) (b : S16384.Idx → EReal) :
    Layer3.G x W (extui 32 mk natLt_1_32) (shapeCast S1x16384 b shapeCasts_S16384_S1x16384)
      = lin x W mk (fun q => b (ix1 q)) := by
  unfold Layer3.G
  rw [show (fun i => IntOp.cmpi .ne (extui 32 mk natLt_1_32 i) 0#32) = mk from funext fun i => ne_zero_setWidth (mk i),
    show (fun q : Fin 16384 => shapeCast S1x16384 b shapeCasts_S16384_S1x16384 (ix2 0 q)) = fun q => b (ix1 q)
      from funext fun q => shapeCast_a_1a_apply b _ 0 q]

/-! ## The result buffer at the last boundary -/

/-- After the fourth pallas_call the result buffer holds the network of the thirteen arguments. -/
theorem result (c : Dev nD) :
    W8 m ρ c (Proc.devRef .tc main_v12)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W8 m ρ c (Proc.devRef .tc main_v12) = (dat3 (V7 m ρ) c).arrAt 4 cfg3.N from W8_arr m ρ c 4,
    Layer3.final, V7_x, V7_w, V7_m, V7_b, G3_spec,
    Layer2.final, V5_x, V5_w, V5_m, V5_b, G2_spec,
    Layer1.final, V3_x, V3_w, V3_m, V3_b, G1_spec,
    Layer0.final, V1_x, V1_w, V1_m, V1_b, G0_spec]
  rfl

end Cert.KernelIdeal.Chain

end
-- ==== Proof.RefNet.lean ====
/-
  The reference program's result is the network of its arguments.

  Each of its four layers multiplies the weights by the mask converted to numbers (0 or 1), transposes the product,
  contracts the activations with it by the host's matrix product, adds the bias broadcast over the rows and (but for
  the last layer) takes the maximum with a zero splat.  Read at an index (p, q), stage by stage, that is the sum over k
  of the activation (p, k) times the weight (q, k) times the bit (q, k), plus the bias q: the masked layer, a weight
  times its bit being the kept weight.  The layers chain through the stage of the previous layer's result.
-/
import proofs.«161399_j27650999452105_2_alg».proof.Proof.Gen.ReferenceIdeal.Read
import proofs.«161399_j27650999452105_2_alg».proof.Proof.Net

noncomputable section

open scoped BigOperators

namespace Cert.ReferenceIdeal.Net

open Idealize.ShloMosaic Idealize.ShloMosaic.ValueIdx
open Cert.ReferenceIdeal Cert.ReferenceIdeal.Read Cert.MaskedMlp

/-- The reference's layer 1: the weights times the mask read as numbers, transposed, contracted with the
    activations by the host's product, plus the broadcast bias, then the maximum with the zero splat. -/
theorem layer1 (x0 : S64x512.Idx → EReal) (x1 : S2048x512.Idx → EReal) (x5 : S2048.Idx → EReal) (x9 : S2048x512.Idx → BitVec 1) :
    val_main_v7 (F := Ideal) x0 x1 x5 x9 = relu (lin x0 x1 x9 (fun q => x5 (ix1 q))) := by
  funext i
  obtain ⟨p, q, rfl⟩ : ∃ (p : Fin 64) (q : Fin 2048), i = ix2 p q := ⟨i 0, i 1, eq_ix2 i⟩
  rw [relu_ix2, lin_ix2, val_main_v7_apply, val_main_v6_apply, val_main_v3_apply, val_main_v5_apply, val_main_v4_apply,
    val_main_call0_v0_apply, val_main_call0_cst_apply]
  have hl : ∀ k : Fin 512, lidx_main_v3 (ix2 p q) k = ix2 p k := fun k => funext fun a => Fin.ext (by
    match a with
    | ⟨0, _⟩ => rfl
    | ⟨1, _⟩ => rfl)
  have hr : ∀ k : Fin 512, idx_main_v2 (ridx_main_v3 (ix2 p q) k) = ix2 q k := fun k => funext fun a => Fin.ext (by
    match a with
    | ⟨0, _⟩ => rfl
    | ⟨1, _⟩ => rfl)
  have hb : idx_main_v4 (idx_main_v5 (ix2 p q)) = ix1 q := funext fun a => Fin.ext (by
    match a with
    | ⟨0, _⟩ => rfl)
  rw [hb]
  simp only [Ideal.maximumf_def, Ideal.addf_def, Ideal.ofBits_def, Ideal.ofBits_zero_f32]
  unfold linAt
  refine congrArg (max · 0) (congrArg (· + _) (Finset.sum_congr rfl fun k _ => ?_))
  rw [val_main_v2_apply, val_main_v1_apply, val_main_v0_apply, hl, hr]
  exact congrArg (x0 (ix2 p k) * ·) (mul_bit_keep _ _)

/-- The reference's layer 2: the weights times the mask read as numbers, transposed, contracted with the
    activations by the host's product, plus the broadcast bias, then the maximum with the zero splat. -/
theorem layer2 (x0 : S64x512.Idx → EReal) (x1 : S2048x512.Idx → EReal) (x2 : S4096x2048.Idx → EReal) (x5 : S2048.Idx → EReal) (x6 : S4096.Idx → EReal) (x9 : S2048x512.Idx → BitVec 1) (x10 : S4096x2048.Idx → BitVec 1) :
    val_main_v15 (F := Ideal) x0 x1 x2 x5 x6 x9 x10 = relu (lin (val_main_v7 (F := Ideal) x0 x1 x5 x9) x2 x10 (fun q => x6 (ix1 q))) := by
  funext i
  obtain ⟨p, q, rfl⟩ : ∃ (p : Fin 64) (q : Fin 4096), i = ix2 p q := ⟨i 0, i 1, eq_ix2 i⟩
  rw [relu_ix2, lin_ix2, val_main_v15_apply, val_main_v14_apply, val_main_v11_apply, val_main_v13_apply, val_main_v12_apply,
    val_main_call1_v0_apply, val_main_call1_cst_apply]
  have hl : ∀ k : Fin 2048, lidx_main_v11 (ix2 p q) k = ix2 p k := fun k => funext fun a => Fin.ext (by
    match a with
    | ⟨0, _⟩ => rfl
    | ⟨1, _⟩ => rfl)
  have hr : ∀ k : Fin 2048, idx_main_v10 (ridx_main_v11 (ix2 p q) k) = ix2 q k := fun k => funext fun a => Fin.ext (by
    match a with
    | ⟨0, _⟩ => rfl
    | ⟨1, _⟩ => rfl)
  have hb : idx_main_v12 (idx_main_v13 (ix2 p q)) = ix1 q := funext fun a => Fin.ext (by
    match a with
    | ⟨0, _⟩ => rfl)
  rw [hb]
  simp only [Ideal.maximumf_def, Ideal.addf_def, Ideal.ofBits_def, Ideal.ofBits_zero_f32]
  unfold linAt
  refine congrArg (max · 0) (congrArg (· + _) (Finset.sum_congr rfl fun k _ => ?_))
  rw [val_main_v10_apply, val_main_v9_apply, val_main_v8_apply, hl, hr]
  exact congrArg (val_main_v7 (F := Ideal) x0 x1 x5 x9 (ix2 p k) * ·) (mul_bit_keep _ _)

/-- The reference's layer 3: the weights times the mask read as numbers, transposed, contracted with the
    activations by the host's product, plus the broadcast bias, then the maximum with the zero splat. -/
theorem layer3 (x0 : S64x512.Idx → EReal) (x1 : S2048x512.Idx → EReal) (x2 : S4096x2048.Idx → EReal) (x3 : S8192x4096.Idx → EReal) (x5 : S2048.Idx → EReal) (x6 : S4096.Idx → EReal) (x7 : S8192.Idx → EReal) (x9 : S2048x512.Idx → BitVec 1) (x10 : S4096x2048.Idx → BitVec 1) (x11 : S8192x4096.Idx → BitVec 1) :
    val_main_v23 (F := Ideal) x0 x1 x2 x3 x5 x6 x7 x9 x10 x11 = relu (lin (val_main_v15 (F := Ideal) x0 x1 x2 x5 x6 x9 x10) x3 x11 (fun q => x7 (ix1 q))) := by
  funext i
  obtain ⟨p, q, rfl⟩ : ∃ (p : Fin 64) (q : Fin 8192), i = ix2 p q := ⟨i 0, i 1, eq_ix2 i⟩
  rw [relu_ix2, lin_ix2, val_main_v23_apply, val_main_v22_apply, val_main_v19_apply, val_main_v21_apply, val_main_v20_apply,
    val_main_call2_v0_apply, val_main_call2_cst_apply]
  have hl : ∀ k : Fin 4096, lidx_main_v19 (ix2 p q) k = ix2 p k := fun k => funext fun a => Fin.ext (by
    match a with
    | ⟨0, _⟩ => rfl
    | ⟨1, _⟩ => rfl)
  have hr : ∀ k : Fin 4096, idx_main_v18 (ridx_main_v19 (ix2 p q) k) = ix2 q k := fun k => funext fun a => Fin.ext (by
    match a with
    | ⟨0, _⟩ => rfl
    | ⟨1, _⟩ => rfl)
  have hb : idx_main_v20 (idx_main_v21 (ix2 p q)) = ix1 q := funext fun a => Fin.ext (by
    match a with
    | ⟨0, _⟩ => rfl)
  rw [hb]
  simp only [Ideal.maximumf_def, Ideal.addf_def, Ideal.ofBits_def, Ideal.ofBits_zero_f32]
  unfold linAt
  refine congrArg (max · 0) (congrArg (· + _) (Finset.sum_congr rfl fun k _ => ?_))
  rw [val_main_v18_apply, val_main_v17_apply, val_main_v16_apply, hl, hr]
  exact congrArg (val_main_v15 (F := Ideal) x0 x1 x2 x5 x6 x9 x10 (ix2 p k) * ·) (mul_bit_keep _ _)

/-- The reference's layer 4: the weights times the mask read as numbers, transposed, contracted with the
    activations by the host's product, plus the broadcast bias. -/
theorem layer4 (x0 : S64x512.Idx → EReal) (x1 : S2048x512.Idx → EReal) (x2 : S4096x2048.Idx → EReal) (x3 : S8192x4096.Idx → EReal) (x4 : S16384x8192.Idx → EReal) (x5 : S2048.Idx → EReal) (x6 : S4096.Idx → EReal) (x7 : S8192.Idx → EReal) (x8 : S16384.Idx → EReal) (x9 : S2048x512.Idx → BitVec 1) (x10 : S4096x2048.Idx → BitVec 1) (x11 : S8192x4096.Idx → BitVec 1) (x12 : S16384x8192.Idx → BitVec 1) :
    val_main_v30 (F := Ideal) x0 x1 x2 x3 x4 x5 x6 x7 x8 x9 x10 x11 x12 = lin (val_main_v23 (F := Ideal) x0 x1 x2 x3 x5 x6 x7 x9 x10 x11) x4 x12 (fun q => x8 (ix1 q)) := by
  funext i
  obtain ⟨p, q, rfl⟩ : ∃ (p : Fin 64) (q : Fin 16384), i = ix2 p q := ⟨i 0, i 1, eq_ix2 i⟩
  rw [lin_ix2, val_main_v30_apply, val_main_v27_apply, val_main_v29_apply, val_main_v28_apply]
  have hl : ∀ k : Fin 8192, lidx_main_v27 (ix2 p q) k = ix2 p k := fun k => funext fun a => Fin.ext (by
    match a with
    | ⟨0, _⟩ => rfl
    | ⟨1, _⟩ => rfl)
  have hr : ∀ k : Fin 8192, idx_main_v26 (ridx_main_v27 (ix2 p q) k) = ix2 q k := fun k => funext fun a => Fin.ext (by
    match a with
    | ⟨0, _⟩ => rfl
    | ⟨1, _⟩ => rfl)
  have hb : idx_main_v28 (idx_main_v29 (ix2 p q)) = ix1 q := funext fun a => Fin.ext (by
    match a with
    | ⟨0, _⟩ => rfl)
  rw [hb]
  simp only [Ideal.addf_def]
  unfold linAt
  refine congrArg (· + _) (Finset.sum_congr rfl fun k _ => ?_)
  rw [val_main_v26_apply, val_main_v25_apply, val_main_v24_apply, hl, hr]
  exact congrArg (val_main_v23 (F := Ideal) x0 x1 x2 x3 x5 x6 x7 x9 x10 x11 (ix2 p k) * ·) (mul_bit_keep _ _)

/-- The reference's result stage is the network of the thirteen arguments. -/
theorem result (x0 : S64x512.Idx → EReal) (x1 : S2048x512.Idx → EReal) (x2 : S4096x2048.Idx → EReal) (x3 : S8192x4096.Idx → EReal) (x4 : S16384x8192.Idx → EReal) (x5 : S2048.Idx → EReal) (x6 : S4096.Idx → EReal) (x7 : S8192.Idx → EReal) (x8 : S16384.Idx → EReal) (x9 : S2048x512.Idx → BitVec 1) (x10 : S4096x2048.Idx → BitVec 1) (x11 : S8192x4096.Idx → BitVec 1) (x12 : S16384x8192.Idx → BitVec 1) :
    val_main_v30 (F := Ideal) x0 x1 x2 x3 x4 x5 x6 x7 x8 x9 x10 x11 x12 = net x0 x1 x2 x3 x4 x5 x6 x7 x8 x9 x10 x11 x12 := by
  rw [layer4, layer3, layer2, layer1]
  rfl

end Cert.ReferenceIdeal.Net

end
-- ==== Proof.lean ====
/-
  The kernel and its jnp reference compute the same four-layer masked perceptron on the extended reals.

  Both programs take activations x [64, 512] and, per layer, weights W [out, in], a boolean mask of W's shape and a
  bias [out], over the widths 512 -> 2048 -> 4096 -> 8192 -> 16384.  A layer's entry (p, q) is the sum over k of
  x (p, k) times the weight (q, k) where the mask is set (zero elsewhere), plus the bias q; the first three layers are
  followed by max (., 0).

  The kernel program is four pallas_calls, one per layer.  Each tiles the layer's output columns over its grid; a grid
  point selects the weights against the mask (widened to words on the host), contracts them with the whole activation
  matrix on the matrix unit — in tiles of 2048 along the contraction axis for the two wide layers —, adds the bias (a
  one-row matrix made on the host) and, but for the last layer, takes max (., 0).  Changes of float format are the
  identity on the extended reals.  The reference multiplies the weights by the mask converted to numbers, transposes,
  and uses the host's matrix product.  A weight times its bit and a select on the bit are the same kept weight (also
  at an infinite weight: 0 * w = 0 on the extended reals), and a sum taken in tiles is the whole sum by commutativity
  and associativity alone, so the equality needs no finiteness: the precondition is not opened.

  The modules: Spec / Net (the layer and the network as functions), Layer0 .. Layer3 (each pallas_call's output array
  is its layer of the arrays it finds), Chain (the arrays found at each pallas_call; the result buffer holds the
  network of the arguments), KernelRun (the kernel program's run with the result buffer named), RefNet (the
  reference's result stage is the network).  The three frame claims are the generated frames and the reference's
  generated run; the idealization rewrote nothing, so preserves has nothing to prove.
-/
import proofs.«161399_j27650999452105_2_alg».proof.Defs
import proofs.«161399_j27650999452105_2_alg».proof.Proof.Gen.Kernel
import proofs.«161399_j27650999452105_2_alg».proof.Proof.Gen.Kernel.Skeleton
import proofs.«161399_j27650999452105_2_alg».proof.Proof.Gen.Kernel.Launch
import proofs.«161399_j27650999452105_2_alg».proof.Proof.Gen.Kernel.Points
import proofs.«161399_j27650999452105_2_alg».proof.Proof.Gen.Kernel.Frame
import proofs.«161399_j27650999452105_2_alg».proof.Proof.Gen.KernelIdeal
import proofs.«161399_j27650999452105_2_alg».proof.Proof.Gen.KernelIdeal.Skeleton
import proofs.«161399_j27650999452105_2_alg».proof.Proof.Gen.KernelIdeal.Launch
import proofs.«161399_j27650999452105_2_alg».proof.Proof.Gen.KernelIdeal.Points
import proofs.«161399_j27650999452105_2_alg».proof.Proof.Gen.KernelIdeal.Frame
import proofs.«161399_j27650999452105_2_alg».proof.Proof.Gen.ReferenceIdeal
import proofs.«161399_j27650999452105_2_alg».proof.Proof.Gen.Pre_finite_inputs
import proofs.«161399_j27650999452105_2_alg».proof.Proof.Gen.ReferenceIdeal.Run
import proofs.«161399_j27650999452105_2_alg».proof.Proof.Gen.ReferenceIdeal.Read
import proofs.«161399_j27650999452105_2_alg».proof.Proof.KernelRun
import proofs.«161399_j27650999452105_2_alg».proof.Proof.Chain
import proofs.«161399_j27650999452105_2_alg».proof.Proof.RefNet
import Idealize.ShloMosaic.Adequacy
import Idealize.ShloMosaic.Init

noncomputable section

namespace Cert.Proof

open Idealize.ShloMosaic Idealize.SL.Sem Cert.MaskedMlp

/-- The word-level kernel program runs and leaves its arguments unchanged: the generated frame. -/
theorem frame_k : Cert.frame_Kernel := fun m ρ _ => Cert.Kernel.Gen.frame m ρ

/-- The same for the idealized kernel program. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result
    buffers: the kernel program by its run and the chain through its four pallas_calls, the reference by its run read
    stage by stage. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12⟩ := hagree c
    rw [(h c).1, Cert.ReferenceIdeal.Read.val_main_v30_eq, Cert.ReferenceIdeal.Net.result,
      e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
